-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S8192 : Shape := ⟨1, ![8192]⟩
abbrev S8192x16 : Shape := ⟨2, ![8192, 16]⟩
abbrev S200000x128 : Shape := ⟨2, ![200000, 128]⟩
abbrev S128x128 : Shape := ⟨2, ![128, 128]⟩
abbrev S128 : Shape := ⟨1, ![128]⟩
abbrev S16x32 : Shape := ⟨2, ![16, 32]⟩
abbrev S32 : Shape := ⟨1, ![32]⟩
abbrev S288x64 : Shape := ⟨2, ![288, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S288x64 : S_.BroadcastsInDim S288x64 (![] : Fin 0 → Fin S288x64.rank)
  reducesTo_S288x64_S_d0_1 : S288x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S64 .f32) (main_arg16 : FVec F S64x1 .f32) (main_arg17 : FVec F S1 .f32) (main_v48 : IVec S_ 1) (main_v49 : FVec F S288x64 .f32) (main_v50 : FVec F S288x64 .f32) : IVec S_ 1 :=
  let main_v51 : IVec S288x64 1 := cmpf .olt main_v49 main_v50
  let main_c_19 : IVec S_ 1 := constantI S_ 1 1#1
  let main_v52 : IVec S_ 1 := (fun x v => Host.reduce IntOp.andi x v reducesTo_S288x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg16
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S128x128 .f32) (main_arg12 : FVec F S16x32 .f32) (main_arg13 : FVec F S32 .f32) (main_arg14 : FVec F S288x64 .f32) (main_arg15 : FVec F S64 .f32) (main_arg16 : FVec F S64x1 .f32) (main_arg17 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S16x32 .f32 := Host.absf main_arg12
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S32 .f32 := Host.absf main_arg13
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S288x64 .f32 := Host.absf main_arg14
  let main_cst_18 : FVec F S_ .f32 := constant S_ .f32 0x7F800000#32
  let main_v50 : FVec F S288x64 .f32 := broadcastInDim S288x64 ![] bcast_S_S288x64 main_cst_18
  fn_part3 (F := F) main_arg15 main_arg16 main_arg17 main_v48 main_v49 main_v50

def fn_part1 {F : FTy → Type} [FloatOps F] (main_arg8 : FVec F S128x128 .f32) (main_arg9 : FVec F S128x128 .f32) (main_arg10 : FVec F S128 .f32) (main_arg11 : FVec F S128x128 .f32) (main_arg12 : FVec F S16x32 .f32) (main_arg13 : FVec F S32 .f32) (main_arg14 : FVec F S288x64 .f32) (main_arg15 : FVec F S64 .f32) (main_arg16 : FVec F S64x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S100000 32) (main_arg1 : IVec S2x1600000 32) (main_arg2 : IVec S8192 32) (main_arg3 : IVec S8192 32) (main_arg4 : FVec F S8192x16 .f32) (main_arg5 : FVec F S200000x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S16x32 .f32) (main_arg13 : FVec F S32 .f32) (main_arg14 : FVec F S288x64 .f32) (main_arg15 : FVec F S64 .f32) (main_arg16 : FVec F S64x1 .f32) (main_arg17 : FVec F S1 .f32) : IVec S_ 1 :=
  let main_v0 : FVec F S8192x16 .f32 := Host.absf main_arg4
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S200000x128 .f32 := Host.absf main_arg5
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000 : Shape := ⟨1, ![100000]⟩
abbrev S2x1600000 : Shape := ⟨2, ![2, 1600000]⟩
abbrev S8192 : Shape := ⟨1, ![8192]⟩
abbrev S8192x16 : Shape := ⟨2, ![8192, 16]⟩
abbrev S200000x128 : Shape := ⟨2, ![200000, 128]⟩
abbrev S128x128 : Shape := ⟨2, ![128, 128]⟩
abbrev S128 : Shape := ⟨1, ![128]⟩
abbrev S16x32 : Shape := ⟨2, ![16, 32]⟩
abbrev S32 : Shape := ⟨1, ![32]⟩
abbrev S288x64 : Shape := ⟨2, ![288, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S256x128 : Shape := ⟨2, ![256, 128]⟩
abbrev S1600000x128 : Shape := ⟨2, ![1600000, 128]⟩
abbrev S1x128 : Shape := ⟨2, ![1, 128]⟩
abbrev S10000x128 : Shape := ⟨2, ![10000, 128]⟩
abbrev S10000x256 : Shape := ⟨2, ![10000, 256]⟩
abbrev S8192x1 : Shape := ⟨2, ![8192, 1]⟩
abbrev S8192x128 : Shape := ⟨2, ![8192, 128]⟩
abbrev S1x32 : Shape := ⟨2, ![1, 32]⟩
abbrev S1x64 : Shape := ⟨2, ![1, 64]⟩
abbrev S1x1 : Shape := ⟨2, ![1, 1]⟩
abbrev S2048x128 : Shape := ⟨2, ![2048, 128]⟩
abbrev S2048x16 : Shape := ⟨2, ![2048, 16]⟩
abbrev S2048x1 : Shape := ⟨2, ![2048, 1]⟩
abbrev S2048x32 : Shape := ⟨2, ![2048, 32]⟩
abbrev S2048x288 : Shape := ⟨2, ![2048, 288]⟩
abbrev S2048x64 : Shape := ⟨2, ![2048, 64]⟩

abbrev nBuf : Space → Nat
  | .hbm => 109
  | .vmem => 30
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S8192, .i32⟩
  | .hbm, ⟨3, _⟩ => ⟨S8192, .i32⟩
  | .hbm, ⟨4, _⟩ => ⟨S8192x16, .f32⟩
  | .hbm, ⟨5, _⟩ => ⟨S200000x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S16x32, .f32⟩
  | .hbm, ⟨13, _⟩ => ⟨S32, .f32⟩
  | .hbm, ⟨14, _⟩ => ⟨S288x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .f32⟩
  | .hbm, ⟨31, _⟩ => ⟨S100000x128, .bf16⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S256x128, .f32⟩
  | .hbm, ⟨43, _⟩ => ⟨S256x128, .bf16⟩
  | .hbm, ⟨44, _⟩ => ⟨S256x128, .f32⟩
  | .hbm, ⟨45, _⟩ => ⟨S256x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .bf16⟩
  | .hbm, ⟨63, _⟩ => ⟨S1x128, .f32⟩
  | .hbm, ⟨64, _⟩ => ⟨S100000x128, .bf16⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .bf16⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .bf16⟩
  | .hbm, ⟨82, _⟩ => ⟨S1x128, .f32⟩
  | .hbm, ⟨83, _⟩ => ⟨S100000x128, .bf16⟩
  | .hbm, ⟨84, _⟩ => ⟨S_, .i32⟩
  | .hbm, ⟨85, _⟩ => ⟨S8192, .i32⟩
  | .hbm, ⟨86, _⟩ => ⟨S8192, .i1⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .i32⟩
  | .hbm, ⟨91, _⟩ => ⟨S8192x1, .i32⟩
  | .hbm, ⟨92, _⟩ => ⟨S8192x128, .bf16⟩
  | .hbm, ⟨93, _⟩ => ⟨S_, .i32⟩
  | .hbm, ⟨94, _⟩ => ⟨S8192, .i32⟩
  | .hbm, ⟨95, _⟩ => ⟨S8192, .i1⟩
  | .hbm, ⟨96, _⟩ => ⟨S_, .i32⟩
  | .hbm, ⟨97, _⟩ => ⟨S8192, .i32⟩
  | .hbm, ⟨98, _⟩ => ⟨S8192, .i32⟩
  | .hbm, ⟨99, _⟩ => ⟨S8192, .i32⟩
  | .hbm, ⟨100, _⟩ => ⟨S8192x1, .i32⟩
  | .hbm, ⟨101, _⟩ => ⟨S8192x128, .bf16⟩
  | .hbm, ⟨102, _⟩ => ⟨S16x32, .bf16⟩
  | .hbm, ⟨103, _⟩ => ⟨S288x64, .bf16⟩
  | .hbm, ⟨104, _⟩ => ⟨S64x1, .bf16⟩
  | .hbm, ⟨105, _⟩ => ⟨S1x32, .f32⟩
  | .hbm, ⟨106, _⟩ => ⟨S1x64, .f32⟩
  | .hbm, ⟨107, _⟩ => ⟨S1x1, .f32⟩
  | .hbm, ⟨108, _⟩ => ⟨S8192x1, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S256x128, .bf16⟩
  | .local _ .vmem, ⟨5, _⟩ => ⟨S1x128, .f32⟩
  | .local _ .vmem, ⟨6, _⟩ => ⟨S10000x128, .bf16⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S256x128, .bf16⟩
  | .local _ .vmem, ⟨13, _⟩ => ⟨S1x128, .f32⟩
  | .local _ .vmem, ⟨14, _⟩ => ⟨S10000x128, .bf16⟩
  | .local _ .vmem, ⟨15, _⟩ => ⟨S10000x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x16, .f32⟩
  | .local _ .vmem, ⟨21, _⟩ => ⟨S2048x16, .f32⟩
  | .local _ .vmem, ⟨22, _⟩ => ⟨S16x32, .bf16⟩
  | .local _ .vmem, ⟨23, _⟩ => ⟨S1x32, .f32⟩
  | .local _ .vmem, ⟨24, _⟩ => ⟨S288x64, .bf16⟩
  | .local _ .vmem, ⟨25, _⟩ => ⟨S1x64, .f32⟩
  | .local _ .vmem, ⟨26, _⟩ => ⟨S64x1, .bf16⟩
  | .local _ .vmem, ⟨27, _⟩ => ⟨S1x1, .f32⟩
  | .local _ .vmem, ⟨28, _⟩ => ⟨S2048x1, .f32⟩
  | .local _ .vmem, ⟨29, _⟩ => ⟨S2048x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S288x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  concatenates_S128x128_S128x128_S256x128_d0 : Shape.Concatenates [S128x128, S128x128] S256x128 0
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x128_S10000x128_S10000x256_d1 : Shape.Concatenates [S10000x128, S10000x128] S10000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S8192 : S_.BroadcastsInDim S8192 (![] : Fin 0 → Fin S8192.rank)
  bcast_S8192_S8192x1_0 : S8192.BroadcastsInDim S8192x1 (![0] : Fin 1 → Fin S8192x1.rank)
  shapeCasts_S32_S1x32 : S32.ShapeCasts S1x32
  shapeCasts_S64_S1x64 : S64.ShapeCasts S1x64
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x16_S2048x16_0_0 : ∀ a, (![0, 0] : Fin 2 → Nat) a + S2048x16.size a ≤ S2048x16.size a
  h_S2048x16 : 0 < S2048x16.numel
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  concatenates_S2048x128_S2048x128_S2048x32_S2048x288_d1 : Shape.Concatenates [S2048x128, S2048x128, S2048x32] S2048x288 1
  inb_S288x64_S288x64_0_0 : ∀ a, (![0, 0] : Fin 2 → Nat) a + S288x64.size a ≤ S288x64.size a
  h_S288x64 : 0 < S288x64.numel
  shapeCasts_S288x64_S288x64 : S288x64.ShapeCasts S288x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S200000x128_S100000x1_S100000x128_1_0_n_n_0_1_1128_wf : GatherDims.WF S200000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x256_S256x128_S10000x128_1_0_0_1_n_n_wf : DotDims.WF S10000x256 S256x128 S10000x128 [1] [0] [0] [1] [] []
  gather_S100000x128_S8192x1_S8192x128_1_0_n_n_0_1_1128_wf : GatherDims.WF S100000x128 S8192x1 S8192x128 [1] [0] [] [0] [] 1 ![1, 128]
  dot_S2048x16_S16x32_S2048x32_1_0_0_1_n_n_wf : DotDims.WF S2048x16 S16x32 S2048x32 [1] [0] [0] [1] [] []
  dot_S2048x288_S288x64_S2048x64_1_0_0_1_n_n_wf : DotDims.WF S2048x288 S288x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .bf16 = 32 ∨ (Rect.block (s := S100000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .bf16 = 32 ∨ (Rect.block (s := S100000x128) S10000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .bf16 = 32 ∨ (Rect.block (s := S100000x128) S10000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .bf16 = 32 ∨ (Rect.block (s := S8192x128) S2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .bf16 = 32 ∨ (Rect.block (s := S8192x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S8192x16.size a
  hwx2_2 : ∀ i : grid2.Coords, EltTy.bits .f32 = 32 ∨ (Rect.block (s := S8192x16) S2048x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .bf16 = 32 ∨ (Rect.block (s := S16x32) S16x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S288x64.size a ≤ S288x64.size a
  hwx2_5 : ∀ i : grid2.Coords, EltTy.bits .bf16 = 32 ∨ (Rect.block (s := S288x64) S288x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .bf16 = 32 ∨ (Rect.block (s := S64x1) S64x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x1.size a ≤ S8192x1.size a
  hwx2_9 : ∀ i : grid2.Coords, EltTy.bits .f32 = 32 ∨ (Rect.block (s := S8192x1) S2048x1.size (cc2_transform_9 i) (hinb2_9 i)).WholeWords (EltTy.packing .f32)

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x288_S288x64_S2048x64_1_0_0_1_n_n : DotDims S2048x288 S288x64 S2048x64 where
  lhsContracting := [1]
  rhsContracting := [0]
  lhsNonContracting := [0]
  rhsNonContracting := [1]
  lhsBatch := []
  rhsBatch := []
  wf := dot_S2048x288_S288x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v36) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S288x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v74) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v75) S2048x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000 : Shape := ⟨1, ![100000]⟩
abbrev S2x1600000 : Shape := ⟨2, ![2, 1600000]⟩
abbrev S8192 : Shape := ⟨1, ![8192]⟩
abbrev S8192x16 : Shape := ⟨2, ![8192, 16]⟩
abbrev S200000x128 : Shape := ⟨2, ![200000, 128]⟩
abbrev S128x128 : Shape := ⟨2, ![128, 128]⟩
abbrev S128 : Shape := ⟨1, ![128]⟩
abbrev S16x32 : Shape := ⟨2, ![16, 32]⟩
abbrev S32 : Shape := ⟨1, ![32]⟩
abbrev S288x64 : Shape := ⟨2, ![288, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S8192x1 : Shape := ⟨2, ![8192, 1]⟩
abbrev S8192x128 : Shape := ⟨2, ![8192, 128]⟩
abbrev S8192x32 : Shape := ⟨2, ![8192, 32]⟩
abbrev S1x32 : Shape := ⟨2, ![1, 32]⟩
abbrev S8192x288 : Shape := ⟨2, ![8192, 288]⟩
abbrev S8192x64 : Shape := ⟨2, ![8192, 64]⟩
abbrev S1x64 : Shape := ⟨2, ![1, 64]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000, .i32⟩
  | 1 => ⟨S2x1600000, .i32⟩
  | 2 => ⟨S8192, .i32⟩
  | 3 => ⟨S8192, .i32⟩
  | 4 => ⟨S8192x16, .f32⟩
  | 5 => ⟨S200000x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S16x32, .f32⟩
  | 13 => ⟨S32, .f32⟩
  | 14 => ⟨S288x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192x128, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x128, .f32⟩
  | 117 => ⟨S8192x32, .f32⟩
  | 118 => ⟨S1x32, .f32⟩
  | 119 => ⟨S8192x32, .f32⟩
  | 120 => ⟨S8192x32, .f32⟩
  | 121 => ⟨S_, .f32⟩
  | 122 => ⟨S8192x32, .f32⟩
  | 123 => ⟨S8192x32, .f32⟩
  | 124 => ⟨S8192x288, .f32⟩
  | 125 => ⟨S8192x64, .f32⟩
  | 126 => ⟨S1x64, .f32⟩
  | 127 => ⟨S8192x64, .f32⟩
  | _ => ⟨S100000, .i32⟩

abbrev hbmTy0_1 (i : Nat) : BufTy := match i % 128 with
  | 0 => ⟨S8192x64, .f32⟩
  | 1 => ⟨S_, .f32⟩
  | 2 => ⟨S8192x64, .f32⟩
  | 3 => ⟨S8192x64, .f32⟩
  | 4 => ⟨S8192x1, .f32⟩
  | 5 => ⟨S1x1, .f32⟩
  | 6 => ⟨S8192x1, .f32⟩
  | 7 => ⟨S8192x1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call0_cst : Ref sig .tc := ⟨.hbm, 62, rfl⟩
abbrev main_call0_v0 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call1_cst : Ref sig .tc := ⟨.hbm, 96, rfl⟩
abbrev main_call1_v0 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call2_cst : Ref sig .tc := ⟨.hbm, 121, rfl⟩
abbrev main_call2_v0 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call3_cst : Ref sig .tc := ⟨.hbm, 129, rfl⟩
abbrev main_call3_v0 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  concatenates_S8192x128_S8192x128_S8192x32_S8192x288_d1 : Shape.Concatenates [S8192x128, S8192x128, S8192x32] S8192x288 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S200000x128_S100000x1_S100000x128_1_0_n_n_0_1_1128_wf : GatherDims.WF S200000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S8192x1_S8192x128_1_0_n_n_0_1_1128_wf : GatherDims.WF S100000x128 S8192x1 S8192x128 [1] [0] [] [0] [] 1 ![1, 128]
  dot_S8192x16_S16x32_S8192x32_1_0_0_1_n_n_wf : DotDims.WF S8192x16 S16x32 S8192x32 [1] [0] [0] [1] [] []
  dot_S8192x288_S288x64_S8192x64_1_0_0_1_n_n_wf : DotDims.WF S8192x288 S288x64 S8192x64 [1] [0] [0] [1] [] []
  dot_S8192x64_S64x1_S8192x1_1_0_0_1_n_n_wf : DotDims.WF S8192x64 S64x1 S8192x1 [1] [0] [0] [1] [] []

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x288_S288x64_S8192x64_1_0_0_1_n_n : DotDims S8192x288 S288x64 S8192x64 where
  lhsContracting := [1]
  rhsContracting := [0]
  lhsNonContracting := [0]
  rhsNonContracting := [1]
  lhsBatch := []
  rhsBatch := []
  wf := dot_S8192x288_S288x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.KernelRun.lean ====
/-
  The idealized kernel's run with its result named.

  The program is three grid regions among stretches of host operations. Running it from any memory with zero
  counters, every weakly fair execution terminates without a fault, and in the final state every buffer the
  host can name holds the contents that the program's segments leave, one after the other: a host stretch applies
  its operations to the contents before it, and a region replaces each of its arrays by what its blocks' write-backs
  leave and keeps every other buffer. Read at the result buffer this gives the result as the last region's output
  array; read at an argument it gives the argument as launched, since nothing writes an argument.
-/
import proofs.«172716_j19241453486692_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the contents
    the last segment leaves there, and every argument array ends as launched. -/
theorem run_result : θ_run defs (onTc (τ := τ) (main (F := F))) ⟨m, fun _ => 0, ρ⟩ (fun r => ∀ c : Dev nD,
      r.2.mem ((c.tc : Thread nD τ).loc main_v75) = W6 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.KRun

end
-- ==== Proof.Spec.lean ====
/-
  The mathematics of the graph network's dense stages, one row at a time, on the extended reals.

  Every dense stage of the model acts on rows independently: an output row depends on the same row of its
  inputs and on the whole weight matrices. So each stage is stated here as a function of rows, that is of
  functions from a finite range of columns to the extended reals.

  * dense x w b j = Σ_k x(k) · w(k, j) + b(j): one entry of a linear layer.
  * A neighbourhood-mean layer: with a the mean of the neighbours' rows and h the node's own row,
    the layer is relu(a · Wl + b + h · Wr). Computed with the two rows laid side by side against the two
    weight matrices stacked, it is relu([a | h] · [Wl ; Wr] + b). The two agree (sage_stacked): a sum over the
    256 columns of [a | h] splits into the sums over its two halves, and addition of extended reals is
    commutative and associative, so (A + H) + b = (A + b) + H. No finiteness is needed.
  * The classifier: relu of a linear layer of the transaction features, laid beside the two gathered
    rows, a second linear layer with relu, and a last linear layer with one output.
-/
import Idealize.ShloMosaic.PureOps.Ideal.Laws
import Idealize.ShloMosaic.Lib.ValueIdx

noncomputable section

open scoped BigOperators

namespace Cert.Spec

/-- Two rows of 128 columns side by side: a row of 256 columns. -/
def cat2 (x y : Fin 128 → EReal) (k : Fin 256) : EReal :=
  if h : k.val < 128 then x ⟨k.val, h⟩ else y ⟨k.val - 128, by omega⟩

/-- Rows of 128, 128 and 32 columns side by side: a row of 288 columns. -/
def cat3 (x y : Fin 128 → EReal) (z : Fin 32 → EReal) (k : Fin 288) : EReal :=
  if h : k.val < 128 then x ⟨k.val, h⟩
  else if h' : k.val < 256 then y ⟨k.val - 128, by omega⟩
  else z ⟨k.val - 256, by omega⟩

/-- Two matrices of 128 rows stacked: a matrix of 256 rows. -/
def stack2 {M : ℕ} (u v : Fin 128 → Fin M → EReal) (k : Fin 256) (j : Fin M) : EReal :=
  if h : k.val < 128 then u ⟨k.val, h⟩ j else v ⟨k.val - 128, by omega⟩ j

/-- Entry j of a linear layer: Σ_k x(k) · w(k, j) + b(j). -/
def dense {K M : ℕ} (x : Fin K → EReal) (w : Fin K → Fin M → EReal) (b : Fin M → EReal) (j : Fin M) : EReal :=
  (∑ k : Fin K, x k * w k j) + b j

/-- The neighbourhood-mean layer with the two rows side by side against the stacked weights. -/
def sageRow (a h : Fin 128 → EReal) (w : Fin 256 → Fin 128 → EReal) (b : Fin 128 → EReal) (j : Fin 128) : EReal :=
  max (dense (cat2 a h) w b j) 0

/-- The neighbourhood-mean layer as two products: relu(a · Wl + b + h · Wr). -/
def sageSplit (a h : Fin 128 → EReal) (wl wr : Fin 128 → Fin 128 → EReal) (b : Fin 128 → EReal) (j : Fin 128) : EReal :=
  max (dense a wl b j + ∑ k : Fin 128, h k * wr k j) 0

/-- The classifier's output for one row. -/
def clsRow (s r : Fin 128 → EReal) (x : Fin 16 → EReal) (wt : Fin 16 → Fin 32 → EReal) (bt : Fin 32 → EReal)
    (wc1 : Fin 288 → Fin 64 → EReal) (bc1 : Fin 64 → EReal) (wc2 : Fin 64 → Fin 1 → EReal) (bc2 : Fin 1 → EReal) : EReal :=
  dense (fun k => max (dense (cat3 s r (fun j => max (dense x wt bt j) 0)) wc1 bc1 k) 0) wc2 bc2 0

/-- A sum over 256 columns is the sum over the first 128 plus the sum over the last 128. -/
theorem sum_256 (f : Fin 256 → EReal) :
    ∑ k : Fin 256, f k = (∑ k : Fin 128, f ⟨k.val, by omega⟩) + ∑ k : Fin 128, f ⟨k.val + 128, by omega⟩ := by
  have h := Fin.sum_univ_add (a := 128) (b := 128) (fun k : Fin (128 + 128) => f ⟨k.val, by omega⟩)
  simpa using h

/-- The side-by-side form against stacked weights is the two-product form. -/
theorem sage_stacked (a h : Fin 128 → EReal) (wl wr : Fin 128 → Fin 128 → EReal) (b : Fin 128 → EReal) (j : Fin 128) :
    sageRow a h (stack2 wl wr) b j = sageSplit a h wl wr b j := by
  unfold sageRow sageSplit dense
  rw [sum_256]
  have e1 : ∀ k : Fin 128, cat2 a h ⟨k.val, by omega⟩ * stack2 wl wr ⟨k.val, by omega⟩ j = a k * wl k j := by
    intro k
    have hk : k.val < 128 := k.isLt
    simp only [cat2, stack2, hk, dite_true]
  have e2 : ∀ k : Fin 128, cat2 a h ⟨k.val + 128, by omega⟩ * stack2 wl wr ⟨k.val + 128, by omega⟩ j = h k * wr k j := by
    intro k
    have hk : ¬ (k.val + 128 < 128) := by omega
    have hs : (⟨k.val + 128 - 128, by omega⟩ : Fin 128) = k := Fin.ext (by simp)
    simp only [cat2, stack2, hk, dite_false, hs]
  simp only [e1, e2]
  rw [add_right_comm]

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«172716_j19241453486692_2_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibStackRows.lean ====
/-
  Two matrices of 128 rows stacked along the rows, read at an entry.

  Joining [128, M] and [128, M] along the first axis gives [256, M]; entry (k, j) comes from the first matrix at
  (k, j) when k < 128 and from the second at (k - 128, j) otherwise. That is the stacked matrix of the row-wise
  specification (Spec.stack2).
-/
import proofs.«172716_j19241453486692_2_alg».proof.Proof.Spec
import Idealize.ShloMosaic.Lib.Pipeline.Value
import Idealize.ShloMosaic.Lib.ValueIdx

noncomputable section

namespace Cert.LibStackRows

open Idealize.ShloMosaic Idealize.ShloMosaic.ValueIdx

/-- The join of two [128, M] matrices along the rows, at (k, j), is the stacked matrix at (k, j). -/
theorem concat_rows_apply {M : ℕ} (u v : (⟨2, ![128, M]⟩ : Shape).Idx → EReal)
    (h : Shape.Concatenates [(⟨2, ![128, M]⟩ : Shape), ⟨2, ![128, M]⟩] ⟨2, ![256, M]⟩ 0) (k : Fin 256) (j : Fin M) :
    concatenate ⟨2, ![256, M]⟩ 0 [⟨⟨2, ![128, M]⟩, u⟩, ⟨⟨2, ![128, M]⟩, v⟩] h (ix2 k j)
      = Cert.Spec.stack2 (fun k j => u (ix2 k j)) (fun k j => v (ix2 k j)) k j := by
  unfold Cert.Spec.stack2
  by_cases hk : k.val < 128
  · rw [dif_pos hk]
    exact concatenate_pair_apply_left 0 u v h (ix2 k j) rfl (ix2 ⟨k.val, hk⟩ j)
      (fun b => by
        match b with
        | ⟨0, _⟩ => rfl
        | ⟨1, _⟩ => rfl)
  · rw [dif_neg hk]
    exact concatenate_pair_apply_right 0 u v h (ix2 k j) rfl rfl (ix2 ⟨k.val - 128, by omega⟩ j)
      (fun b hb => by
        match b with
        | ⟨0, _⟩ => exact absurd rfl hb
        | ⟨1, _⟩ => rfl)
      (by show k.val - 128 + 128 = k.val; omega)

end Cert.LibStackRows

end
-- ==== Proof.KHost0.lean ====
/-
  What the first grid region finds in its arrays: the host operations before it, read as functions of the arguments.

  Before the first region the host gathers the node features h0 from the embedding table, counts each node's
  incoming edges (at least 1), sums the neighbours' features into each node and divides by the count: the mean.
  The reference computes the same four arrays with the same operations, except that it makes the count a column by
  a broadcast where the kernel reshapes it, and that the kernel passes the features through a narrower float
  format, which on the extended reals is the identity. So the arrays are equal to the reference's stages.
  The kernel also stacks the two weight matrices of the layer, [Wl ; Wr], and reshapes the bias to a row.
-/
import proofs.«172716_j19241453486692_2_alg».proof.Proof.Gen.KernelIdeal.Frame
import proofs.«172716_j19241453486692_2_alg».proof.Proof.Gen.ReferenceIdeal.Read
import proofs.«172716_j19241453486692_2_alg».proof.Proof.Spec
import proofs.«172716_j19241453486692_2_alg».proof.Proof.LibVecColumn
import proofs.«172716_j19241453486692_2_alg».proof.Proof.LibStackRows
import Idealize.ShloMosaic.Lib.StableHlo.Run
import Idealize.ShloMosaic.PureOps.Ideal

set_option maxRecDepth 16384

noncomputable section

namespace Cert.KernelIdeal.KHost

open Cert.KernelIdeal Cert.KernelIdeal.Gen Cert.ReferenceIdeal.Read
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

set_option maxHeartbeats 40000000 in
/-- The node features the first region reads are the reference's gathered features. -/
theorem h0_eq (c : Dev nD) :
    V1 (F := Ideal) m ρ c main_v11
      = val_main_v10 (F := Ideal) (m ((c.tc : Thread nD τ).loc main_arg0)) (m ((c.tc : Thread nD τ).loc main_arg5)) := by
  show StableHlo.after hostOps0 (W0 m ρ c) (Proc.devRef .tc main_v11) = _
  after_results_simp
  rfl

set_option maxHeartbeats 40000000 in
/-- The stacked weights the first region reads, at (k, j): Wl1 above Wr1. -/
theorem wcat1_apply (c : Dev nD) (k : Fin 256) (j : Fin 128) :
    V1 (F := Ideal) m ρ c main_v20 (ix2 k j)
      = Cert.Spec.stack2 (fun k j => m ((c.tc : Thread nD τ).loc main_arg6) (ix2 k j))
          (fun k j => m ((c.tc : Thread nD τ).loc main_arg8) (ix2 k j)) k j := by
  have e : V1 (F := Ideal) m ρ c main_v20
      = (truncf (F := Ideal) .bf16 (concatenate S256x128 0 [⟨S128x128, (m ((c.tc : Thread nD τ).loc main_arg6) : S128x128.Idx → Ideal .f32)⟩,
          ⟨S128x128, (m ((c.tc : Thread nD τ).loc main_arg8) : S128x128.Idx → Ideal .f32)⟩] concatenates_S128x128_S128x128_S256x128_d0) bitsLt_bf16_f32 : FVec Ideal S256x128 .bf16) := by
    show StableHlo.after hostOps0 (W0 m ρ c) (Proc.devRef .tc main_v20) = _
    after_results_simp
    rfl
  exact (congrFun e (ix2 k j)).trans (Cert.LibStackRows.concat_rows_apply (M := 128)
    (m ((c.tc : Thread nD τ).loc main_arg6)) (m ((c.tc : Thread nD τ).loc main_arg8))
    concatenates_S128x128_S128x128_S256x128_d0 k j)

set_option maxHeartbeats 40000000 in
/-- The bias row the first region reads, at (0, j): the bias vector at j. -/
theorem bias1_apply (c : Dev nD) (j : Fin 128) :
    V1 (F := Ideal) m ρ c main_v37 (ix2 (0 : Fin 1) j) = m ((c.tc : Thread nD τ).loc main_arg7) (ix1 j) := by
  have e : V1 (F := Ideal) m ρ c main_v37
      = (shapeCast S1x128 (m ((c.tc : Thread nD τ).loc main_arg7) : S128.Idx → Ideal .f32) shapeCasts_S128_S1x128 : S1x128.Idx → Ideal .f32) := by
    show StableHlo.after hostOps0 (W0 m ρ c) (Proc.devRef .tc main_v37) = _
    after_results_simp
    rfl
  exact (congrFun e (ix2 (0 : Fin 1) j)).trans (Cert.LibVecColumn.shapeCast_b_1b_apply _ _ 0 j)

end Cert.KernelIdeal.KHost

end
-- ==== Proof.KHost1.lean ====
/-
  What the second grid region finds in its arrays.

  Between the first and the second region the host repeats the neighbourhood mean on the first region's output h1.
  The buffers it reads that were written before the first region (the edge lists, the count) are as that region left
  them, which is as it found them, since a region changes only its own arrays; and the first region's output array
  reaches the second region untouched, since no host operation in between writes it.
-/
import proofs.«172716_j19241453486692_2_alg».proof.Proof.Gen.KernelIdeal.Frame
import proofs.«172716_j19241453486692_2_alg».proof.Proof.Gen.ReferenceIdeal.Read
import proofs.«172716_j19241453486692_2_alg».proof.Proof.Spec
import proofs.«172716_j19241453486692_2_alg».proof.Proof.LibVecColumn
import proofs.«172716_j19241453486692_2_alg».proof.Proof.LibStackRows
import Idealize.ShloMosaic.Lib.StableHlo.Run
import Idealize.ShloMosaic.PureOps.Ideal

set_option maxRecDepth 16384

noncomputable section

namespace Cert.KernelIdeal.KHost

open Cert.KernelIdeal Cert.KernelIdeal.Gen Cert.ReferenceIdeal.Read
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- A buffer that the first region does not own and the host wrote before it: after the region it holds what the
    host left there. Here: the edges' sources, the edges' targets and the count column. -/
theorem W2_src (c : Dev nD) : W2 (F := Ideal) m ρ c (Proc.devRef .tc main_v1) = W1 m ρ c (Proc.devRef .tc main_v1) :=
  W2_of_ne m ρ c main_v1 (by decide)
theorem W2_dst (c : Dev nD) : W2 (F := Ideal) m ρ c (Proc.devRef .tc main_v3) = W1 m ρ c (Proc.devRef .tc main_v3) :=
  W2_of_ne m ρ c main_v3 (by decide)
theorem W2_cnt (c : Dev nD) : W2 (F := Ideal) m ρ c (Proc.devRef .tc main_v18) = W1 m ρ c (Proc.devRef .tc main_v18) :=
  W2_of_ne m ρ c main_v18 (by decide)

set_option maxHeartbeats 40000000 in
/-- The second region reads the first region's output array unchanged: no host operation in between writes it. -/
theorem h1_pass (c : Dev nD) :
    V3 (F := Ideal) m ρ c main_v38 = W2 m ρ c (Proc.devRef .tc main_v38) := by
  show StableHlo.after hostOps1 (W2 m ρ c) (Proc.devRef .tc main_v38) = _
  after_results_simp

end Cert.KernelIdeal.KHost

end
-- ==== Proof.KHost1b.lean ====
/-
  What the second grid region finds in its weight and bias arrays: the host operations before it, read as
  functions of the arguments.

  The stacked weights of the second layer, [Wl ; Wr], are joined along the rows and narrowed before the first
  region runs; the first region does not write them and no later host operation does, so the second region
  finds the join of the two weight arguments (on the extended reals the narrowing is the identity). The bias
  row is the bias vector reshaped to one row just before the second region; the argument it is made from is
  never written, so it is the launch contents.
-/
import proofs.«172716_j19241453486692_2_alg».proof.Proof.Gen.KernelIdeal.Frame
import proofs.«172716_j19241453486692_2_alg».proof.Proof.Gen.ReferenceIdeal.Read
import proofs.«172716_j19241453486692_2_alg».proof.Proof.Spec
import proofs.«172716_j19241453486692_2_alg».proof.Proof.LibVecColumn
import proofs.«172716_j19241453486692_2_alg».proof.Proof.LibStackRows
import Idealize.ShloMosaic.Lib.StableHlo.Run
import Idealize.ShloMosaic.PureOps.Ideal

set_option maxRecDepth 16384

noncomputable section

namespace Cert.KernelIdeal.KHost

open Cert.KernelIdeal Cert.KernelIdeal.Gen Cert.ReferenceIdeal.Read
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

set_option maxHeartbeats 40000000 in
/-- The host operations between the two regions leave the stacked weights as the first region left them. -/
theorem wcat2_kept (c : Dev nD) :
    V3 (F := Ideal) m ρ c main_v22 = W2 (F := Ideal) m ρ c (Proc.devRef .tc main_v22) := by
  show StableHlo.after hostOps1 (W2 m ρ c) (Proc.devRef .tc main_v22) = _
  after_results_simp

set_option maxHeartbeats 40000000 in
/-- The stacked weights as the host operations before the first region make them: the join along the rows. -/
theorem wcat2_made (c : Dev nD) :
    W1 (F := Ideal) m ρ c (Proc.devRef .tc main_v22)
      = (truncf (F := Ideal) .bf16 (concatenate S256x128 0 [⟨S128x128, (m ((c.tc : Thread nD τ).loc main_arg9) : S128x128.Idx → Ideal .f32)⟩,
          ⟨S128x128, (m ((c.tc : Thread nD τ).loc main_arg11) : S128x128.Idx → Ideal .f32)⟩] concatenates_S128x128_S128x128_S256x128_d0) bitsLt_bf16_f32 : FVec Ideal S256x128 .bf16) := by
  show StableHlo.after hostOps0 (W0 m ρ c) (Proc.devRef .tc main_v22) = _
  after_results_simp
  rfl

/-- The stacked weights the second region reads, at (k, j): Wl2 above Wr2. -/
theorem wcat2_apply (c : Dev nD) (k : Fin 256) (j : Fin 128) :
    V3 (F := Ideal) m ρ c main_v22 (ix2 k j)
      = Cert.Spec.stack2 (fun k j => m ((c.tc : Thread nD τ).loc main_arg9) (ix2 k j))
          (fun k j => m ((c.tc : Thread nD τ).loc main_arg11) (ix2 k j)) k j := by
  have e := (wcat2_kept m ρ c).trans ((W2_of_ne m ρ c main_v22 (by decide)).trans (wcat2_made m ρ c))
  exact (congrFun e (ix2 k j)).trans (Cert.LibStackRows.concat_rows_apply (M := 128)
    (m ((c.tc : Thread nD τ).loc main_arg9)) (m ((c.tc : Thread nD τ).loc main_arg11))
    concatenates_S128x128_S128x128_S256x128_d0 k j)

set_option maxHeartbeats 40000000 in
/-- The bias row as the host operations between the two regions make it: the reshape of the bias vector
    as the first region left it. -/
theorem bias2_made (c : Dev nD) :
    V3 (F := Ideal) m ρ c main_v53
      = (shapeCast S1x128 (W2 (F := Ideal) m ρ c (Proc.devRef .tc main_arg10) : S128.Idx → Ideal .f32) shapeCasts_S128_S1x128 : S1x128.Idx → Ideal .f32) := by
  show StableHlo.after hostOps1 (W2 m ρ c) (Proc.devRef .tc main_v53) = _
  after_results_simp
  rfl

set_option maxHeartbeats 40000000 in
/-- No host operation before the first region writes the bias vector. -/
theorem arg10_kept (c : Dev nD) :
    W1 (F := Ideal) m ρ c (Proc.devRef .tc main_arg10) = m ((c.tc : Thread nD τ).loc main_arg10) := by
  show StableHlo.after hostOps0 (W0 m ρ c) (Proc.devRef .tc main_arg10) = _
  after_results_simp

/-- The bias row the second region reads, at (0, j): the bias vector at j. -/
theorem bias2_apply (c : Dev nD) (j : Fin 128) :
    V3 (F := Ideal) m ρ c main_v53 (ix2 (0 : Fin 1) j) = m ((c.tc : Thread nD τ).loc main_arg10) (ix1 j) := by
  have e10 : W2 (F := Ideal) m ρ c (Proc.devRef .tc main_arg10) = m ((c.tc : Thread nD τ).loc main_arg10) :=
    (W2_of_ne m ρ c main_arg10 (by decide)).trans (arg10_kept m ρ c)
  have e : V3 (F := Ideal) m ρ c main_v53
      = (shapeCast S1x128 (m ((c.tc : Thread nD τ).loc main_arg10) : S128.Idx → Ideal .f32) shapeCasts_S128_S1x128 : S1x128.Idx → Ideal .f32) :=
    (bias2_made m ρ c).trans (congrArg (fun x : S128.Idx → Ideal .f32 => (shapeCast S1x128 x shapeCasts_S128_S1x128 : S1x128.Idx → Ideal .f32)) e10)
  exact (congrFun e (ix2 (0 : Fin 1) j)).trans (Cert.LibVecColumn.shapeCast_b_1b_apply _ _ 0 j)

end Cert.KernelIdeal.KHost

end
-- ==== Proof.KMean.lean ====
/-
  The neighbourhood means the two layer regions read are the reference's means.

  For a feature array H the host computes mean(H): it gathers H's rows along the edges' sources, adds them into the
  edges' targets, and divides each node's sum by the number of edges into it (at least 1). The kernel program and
  the reference spell this with the same operations on the same operands. They differ in three places only: the
  kernel narrows the features to a shorter float format and widens them back, which on the extended reals does
  nothing; the kernel makes the count a column by a reshape, the reference by a broadcast along a new axis, and a
  vector is the same column either way; and the kernel computes the count once, the reference once per layer, by
  the same term. So mean(H) is one function of H and the edge list in both programs, and it remains to feed it the
  same H: the gathered embedding rows in the first layer, the first region's output in the second.
-/
import proofs.«172716_j19241453486692_2_alg».proof.Proof.Gen.KernelIdeal.Frame
import proofs.«172716_j19241453486692_2_alg».proof.Proof.Gen.ReferenceIdeal.Read
import proofs.«172716_j19241453486692_2_alg».proof.Proof.Spec
import proofs.«172716_j19241453486692_2_alg».proof.Proof.LibVecColumn
import proofs.«172716_j19241453486692_2_alg».proof.Proof.LibStackRows
import proofs.«172716_j19241453486692_2_alg».proof.Proof.KHost1
import Idealize.ShloMosaic.Lib.StableHlo.Run
import Idealize.ShloMosaic.PureOps.Ideal

set_option maxRecDepth 16384

noncomputable section

namespace Cert.KernelIdeal.KHost

open Cert.KernelIdeal Cert.KernelIdeal.Gen Cert.ReferenceIdeal.Read
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- The neighbourhood mean of a feature array H over the edge list x1, spelt with the kernel program's host operations,
    is the reference's spelling of the same mean: the edge sources index the gather, the edge targets the
    scatter-add, and the per-node count (at least 1) divides, reshaped to a column here and broadcast there (the
    same array: a column either way). The two spellings are the same operations on the same operands. -/
theorem mean_plain (x1 : IVec S2x1600000 32) (H : FVec Ideal S100000x128 .f32) :
    ((Host.divf (F := Ideal)
        (Host.scatterAdd scatter_S100000x128_S1600000x1_S1600000x128_1_0_0_1
          (broadcastInDim S100000x128 ![] Cert.KernelIdeal.Gen.bcast_S_S100000x128 (constant S_ FTy.f32 0#32))
          (broadcastInDim S1600000x1 ![0] Cert.KernelIdeal.Gen.bcast_S1600000_S1600000x1_0 (fun i => shapeCast main_v3.ty.shape (extractStridedSlice S1x1600000 ![1, 0] x1 Cert.KernelIdeal.Gen.slices_S2x1600000_S1x1600000_1_0) Cert.KernelIdeal.Gen.shapeCasts_S1x1600000_S1600000 i))
          (
            (Host.gather gather_S100000x128_S1600000x1_S1600000x128_1_0_n_n_0_1_1128
              H
              (broadcastInDim S1600000x1 ![0] Cert.KernelIdeal.Gen.bcast_S1600000_S1600000x1_0
                (select
                  (cmpi CmpIPredicate.slt (fun i => shapeCast main_v1.ty.shape (extractStridedSlice S1x1600000 ![0, 0] x1 Cert.KernelIdeal.Gen.slices_S2x1600000_S1x1600000_0_0) Cert.KernelIdeal.Gen.shapeCasts_S1x1600000_S1600000 i)
                    (broadcastInDim S1600000 ![] Cert.KernelIdeal.Gen.bcast_S_S1600000 (constantI S_ 32 0#32)))
                  (addi (fun i => shapeCast main_v1.ty.shape (extractStridedSlice S1x1600000 ![0, 0] x1 Cert.KernelIdeal.Gen.slices_S2x1600000_S1x1600000_0_0) Cert.KernelIdeal.Gen.shapeCasts_S1x1600000_S1600000 i)
                    (broadcastInDim S1600000 ![] Cert.KernelIdeal.Gen.bcast_S_S1600000 (constantI S_ 32 100000#32)))
                  (fun i => shapeCast main_v1.ty.shape (extractStridedSlice S1x1600000 ![0, 0] x1 Cert.KernelIdeal.Gen.slices_S2x1600000_S1x1600000_0_0) Cert.KernelIdeal.Gen.shapeCasts_S1x1600000_S1600000 i))))
            ))
        (broadcastInDim S100000x128 ![0, 1] Cert.KernelIdeal.Gen.bcast_S100000x1_S100000x128_0_1 fun i =>
          shapeCast main_v18.ty.shape
            (maximumf
              (Host.scatterAdd scatter_S100000_S1600000x1_S1600000_n_0_0_1
                (broadcastInDim S100000 ![] Cert.KernelIdeal.Gen.bcast_S_S100000 (constant S_ FTy.f32 0#32))
                (broadcastInDim S1600000x1 ![0] Cert.KernelIdeal.Gen.bcast_S1600000_S1600000x1_0 (fun i => shapeCast main_v3.ty.shape (extractStridedSlice S1x1600000 ![1, 0] x1 Cert.KernelIdeal.Gen.slices_S2x1600000_S1x1600000_1_0) Cert.KernelIdeal.Gen.shapeCasts_S1x1600000_S1600000 i))
                (broadcastInDim S1600000 ![] Cert.KernelIdeal.Gen.bcast_S_S1600000 (constant S_ FTy.f32 1065353216#32)))
              (broadcastInDim S100000 ![] Cert.KernelIdeal.Gen.bcast_S_S100000 (constant S_ FTy.f32 1065353216#32)))
            Cert.KernelIdeal.Gen.shapeCasts_S100000_S100000x1 i))
      : FVec Ideal S100000x128 .f32)
    = (Host.divf (F := Ideal)
        (Host.scatterAdd Cert.ReferenceIdeal.scatter_S100000x128_S1600000x1_S1600000x128_1_0_0_1 (val_main_v18 (F := Ideal))
          (val_main_v19 (F := Ideal) x1)
          (Host.gather Cert.ReferenceIdeal.gather_S100000x128_S1600000x1_S1600000x128_1_0_n_n_0_1_1128 H (val_main_v16 (F := Ideal) x1)))
        (broadcastInDim Cert.ReferenceIdeal.S100000x128 ![0, 1] Cert.ReferenceIdeal.Gen.bcast_S100000x1_S100000x128_0_1
          (shapeCast ⟨2, ![100000, 1]⟩ (val_main_v26 (F := Ideal) x1 : S100000.Idx → Ideal .f32) Cert.KernelIdeal.Gen.shapeCasts_S100000_S100000x1))
      : FVec Ideal Cert.ReferenceIdeal.S100000x128 .f32) := rfl

/-- On the extended reals a change of float format does nothing, so the kernel's detours through a narrower format
    drop out of the mean: here with the features narrowed before the gather, the gathered rows widened and the
    quotient narrowed (the first layer's spelling). -/
theorem strip_formats1 (Z : FVec Ideal S100000x128 .f32) (D I : IVec S1600000x1 32) (B H : FVec Ideal S100000x128 .f32) :
    (truncf (F := Ideal) FTy.bf16
      (Host.divf
        (Host.scatterAdd scatter_S100000x128_S1600000x1_S1600000x128_1_0_0_1 Z D
          (extf FTy.f32
            (Host.gather gather_S100000x128_S1600000x1_S1600000x128_1_0_n_n_0_1_1128
              (truncf FTy.bf16 H bitsLt_bf16_f32) I)
            bitsLt_bf16_f32))
        B)
      bitsLt_bf16_f32 : FVec Ideal S100000x128 .bf16)
    = (Host.divf (F := Ideal)
        (Host.scatterAdd scatter_S100000x128_S1600000x1_S1600000x128_1_0_0_1 Z D
          (Host.gather gather_S100000x128_S1600000x1_S1600000x128_1_0_n_n_0_1_1128 H I))
        B : FVec Ideal S100000x128 .f32) := rfl

/-- The second layer's spelling: the features are already in the narrower format. -/
theorem strip_formats2 (Z : FVec Ideal S100000x128 .f32) (D I : IVec S1600000x1 32) (B : FVec Ideal S100000x128 .f32)
    (H : FVec Ideal S100000x128 .bf16) :
    (truncf (F := Ideal) FTy.bf16
      (Host.divf
        (Host.scatterAdd scatter_S100000x128_S1600000x1_S1600000x128_1_0_0_1 Z D
          (extf FTy.f32
            (Host.gather gather_S100000x128_S1600000x1_S1600000x128_1_0_n_n_0_1_1128 H I)
            bitsLt_bf16_f32))
        B)
      bitsLt_bf16_f32 : FVec Ideal S100000x128 .bf16)
    = (Host.divf (F := Ideal)
        (Host.scatterAdd scatter_S100000x128_S1600000x1_S1600000x128_1_0_0_1 Z D
          (Host.gather gather_S100000x128_S1600000x1_S1600000x128_1_0_n_n_0_1_1128 (H : S100000x128.Idx → Ideal .f32) I))
        B : FVec Ideal S100000x128 .f32) := rfl

set_option maxHeartbeats 40000000 in
/-- The mean the first region reads is the reference's first mean: mean(h0), with h0 the gathered embedding rows in
    both programs. -/
theorem mean1_eq (c : Dev nD) :
    V1 (F := Ideal) m ρ c main_v36
      = val_main_v29 (F := Ideal) (m ((c.tc : Thread nD τ).loc main_arg0)) (m ((c.tc : Thread nD τ).loc main_arg1)) (m ((c.tc : Thread nD τ).loc main_arg5)) := by
  have hR : val_main_v29 (F := Ideal) (m ((c.tc : Thread nD τ).loc main_arg0)) (m ((c.tc : Thread nD τ).loc main_arg1)) (m ((c.tc : Thread nD τ).loc main_arg5))
      = (Host.divf (F := Ideal) (val_main_v20 (F := Ideal) (m ((c.tc : Thread nD τ).loc main_arg0)) (m ((c.tc : Thread nD τ).loc main_arg1)) (m ((c.tc : Thread nD τ).loc main_arg5)) : FVec Ideal Cert.ReferenceIdeal.S100000x128 .f32)
        (broadcastInDim Cert.ReferenceIdeal.S100000x128 ![0, 1] Cert.ReferenceIdeal.Gen.bcast_S100000x1_S100000x128_0_1
          (shapeCast ⟨2, ![100000, 1]⟩ (val_main_v26 (F := Ideal) (m ((c.tc : Thread nD τ).loc main_arg1)) : S100000.Idx → Ideal .f32)
            shapeCasts_S100000_S100000x1)) : FVec Ideal Cert.ReferenceIdeal.S100000x128 .f32) := by
    unfold val_main_v29 val_main_v28 val_main_v27
    rw [← Cert.LibVecColumn.shapeCast_eq_broadcastInDim _ shapeCasts_S100000_S100000x1]
  refine Eq.trans ?_ hR.symm
  show StableHlo.after hostOps0 (W0 m ρ c) (Proc.devRef .tc main_v36) = _
  after_results_simp
  refine (strip_formats1 _ _ _ _ _).trans ?_
  refine (mean_plain _ _).trans ?_
  unfold val_main_v20 val_main_v17
  rfl

/-- The same against the reference's second layer, which spells the count and the edge indices again, by the same
    terms. -/
theorem mean_plain2 (x1 : IVec S2x1600000 32) (H : FVec Ideal S100000x128 .f32) :
    ((Host.divf (F := Ideal)
        (Host.scatterAdd scatter_S100000x128_S1600000x1_S1600000x128_1_0_0_1
          (broadcastInDim S100000x128 ![] Cert.KernelIdeal.Gen.bcast_S_S100000x128 (constant S_ FTy.f32 0#32))
          (broadcastInDim S1600000x1 ![0] Cert.KernelIdeal.Gen.bcast_S1600000_S1600000x1_0 (fun i => shapeCast main_v3.ty.shape (extractStridedSlice S1x1600000 ![1, 0] x1 Cert.KernelIdeal.Gen.slices_S2x1600000_S1x1600000_1_0) Cert.KernelIdeal.Gen.shapeCasts_S1x1600000_S1600000 i))
          (
            (Host.gather gather_S100000x128_S1600000x1_S1600000x128_1_0_n_n_0_1_1128
              H
              (broadcastInDim S1600000x1 ![0] Cert.KernelIdeal.Gen.bcast_S1600000_S1600000x1_0
                (select
                  (cmpi CmpIPredicate.slt (fun i => shapeCast main_v1.ty.shape (extractStridedSlice S1x1600000 ![0, 0] x1 Cert.KernelIdeal.Gen.slices_S2x1600000_S1x1600000_0_0) Cert.KernelIdeal.Gen.shapeCasts_S1x1600000_S1600000 i)
                    (broadcastInDim S1600000 ![] Cert.KernelIdeal.Gen.bcast_S_S1600000 (constantI S_ 32 0#32)))
                  (addi (fun i => shapeCast main_v1.ty.shape (extractStridedSlice S1x1600000 ![0, 0] x1 Cert.KernelIdeal.Gen.slices_S2x1600000_S1x1600000_0_0) Cert.KernelIdeal.Gen.shapeCasts_S1x1600000_S1600000 i)
                    (broadcastInDim S1600000 ![] Cert.KernelIdeal.Gen.bcast_S_S1600000 (constantI S_ 32 100000#32)))
                  (fun i => shapeCast main_v1.ty.shape (extractStridedSlice S1x1600000 ![0, 0] x1 Cert.KernelIdeal.Gen.slices_S2x1600000_S1x1600000_0_0) Cert.KernelIdeal.Gen.shapeCasts_S1x1600000_S1600000 i))))
            ))
        (broadcastInDim S100000x128 ![0, 1] Cert.KernelIdeal.Gen.bcast_S100000x1_S100000x128_0_1 fun i =>
          shapeCast main_v18.ty.shape
            (maximumf
              (Host.scatterAdd scatter_S100000_S1600000x1_S1600000_n_0_0_1
                (broadcastInDim S100000 ![] Cert.KernelIdeal.Gen.bcast_S_S100000 (constant S_ FTy.f32 0#32))
                (broadcastInDim S1600000x1 ![0] Cert.KernelIdeal.Gen.bcast_S1600000_S1600000x1_0 (fun i => shapeCast main_v3.ty.shape (extractStridedSlice S1x1600000 ![1, 0] x1 Cert.KernelIdeal.Gen.slices_S2x1600000_S1x1600000_1_0) Cert.KernelIdeal.Gen.shapeCasts_S1x1600000_S1600000 i))
                (broadcastInDim S1600000 ![] Cert.KernelIdeal.Gen.bcast_S_S1600000 (constant S_ FTy.f32 1065353216#32)))
              (broadcastInDim S100000 ![] Cert.KernelIdeal.Gen.bcast_S_S100000 (constant S_ FTy.f32 1065353216#32)))
            Cert.KernelIdeal.Gen.shapeCasts_S100000_S100000x1 i))
      : FVec Ideal S100000x128 .f32)
    = (Host.divf (F := Ideal)
        (Host.scatterAdd Cert.ReferenceIdeal.scatter_S100000x128_S1600000x1_S1600000x128_1_0_0_1 (val_main_v44 (F := Ideal))
          (val_main_v45 (F := Ideal) x1)
          (Host.gather Cert.ReferenceIdeal.gather_S100000x128_S1600000x1_S1600000x128_1_0_n_n_0_1_1128 H (val_main_v42 (F := Ideal) x1)))
        (broadcastInDim Cert.ReferenceIdeal.S100000x128 ![0, 1] Cert.ReferenceIdeal.Gen.bcast_S100000x1_S100000x128_0_1
          (shapeCast ⟨2, ![100000, 1]⟩ (val_main_v52 (F := Ideal) x1 : S100000.Idx → Ideal .f32) Cert.KernelIdeal.Gen.shapeCasts_S100000_S100000x1))
      : FVec Ideal Cert.ReferenceIdeal.S100000x128 .f32) := rfl

set_option maxHeartbeats 40000000 in
/-- If the first region's output is the reference's h1, the mean the second region reads is the reference's second
    mean: mean(h1). The edge lists and the count were written before the first region and are read as it left them. -/
theorem mean2_eq (c : Dev nD)
    (H : W2 (F := Ideal) m ρ c (Proc.devRef .tc main_v38)
      = val_main_v36 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))) :
    V3 (F := Ideal) m ρ c main_v52
      = val_main_v55 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) := by
  have hR : val_main_v55 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))
      = (Host.divf (F := Ideal) (val_main_v46 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) : FVec Ideal Cert.ReferenceIdeal.S100000x128 .f32)
        (broadcastInDim Cert.ReferenceIdeal.S100000x128 ![0, 1] Cert.ReferenceIdeal.Gen.bcast_S100000x1_S100000x128_0_1
          (shapeCast ⟨2, ![100000, 1]⟩ (val_main_v52 (F := Ideal) (m ((c.tc : Thread nD τ).loc main_arg1)) : S100000.Idx → Ideal .f32)
            shapeCasts_S100000_S100000x1)) : FVec Ideal Cert.ReferenceIdeal.S100000x128 .f32) := by
    unfold val_main_v55 val_main_v54 val_main_v53
    rw [← Cert.LibVecColumn.shapeCast_eq_broadcastInDim _ shapeCasts_S100000_S100000x1]
  refine Eq.trans ?_ hR.symm
  show StableHlo.after hostOps1 (W2 m ρ c) (Proc.devRef .tc main_v52) = _
  after_results_simp
  rw [H, W2_src, W2_dst, W2_cnt]
  show _ = _
  after_results_simp
  refine (strip_formats2 _ _ _ _ _).trans ?_
  refine (mean_plain2 _ _).trans ?_
  unfold val_main_v46 val_main_v43
  rfl

end Cert.KernelIdeal.KHost

end
-- ==== Proof.KHost2.lean ====
/-
  What the third grid region (the classifier) finds in its arrays: the host operations before it, read as
  functions of the arguments.

  Before the classifier the host gathers, from the second layer's output, the rows of the senders and of the
  receivers of the transactions: a negative node index is first shifted by the number of nodes, then the indices
  are made a column and the rows are gathered. The reference computes its two gathered arrays with the same
  operations from its own second layer's output, so, as soon as the two outputs agree, the gathered arrays agree.
  The transaction features are an argument, passed as it is. The three weight matrices are passed through a
  narrower float format, which on the extended reals is the identity, and the three bias vectors are reshaped to
  rows: entry (0, j) of the row is entry j of the vector.

  No host operation and no earlier region writes an argument's buffer, so at the classifier's entry each argument
  still holds what it held at the launch.
-/
import proofs.«172716_j19241453486692_2_alg».proof.Proof.Gen.KernelIdeal.Frame
import proofs.«172716_j19241453486692_2_alg».proof.Proof.Gen.ReferenceIdeal.Read
import proofs.«172716_j19241453486692_2_alg».proof.Proof.Spec
import proofs.«172716_j19241453486692_2_alg».proof.Proof.LibVecColumn
import proofs.«172716_j19241453486692_2_alg».proof.Proof.LibStackRows
import Idealize.ShloMosaic.Lib.StableHlo.Run
import Idealize.ShloMosaic.PureOps.Ideal

set_option maxRecDepth 16384

noncomputable section

namespace Cert.KernelIdeal.KHost

open Cert.KernelIdeal Cert.KernelIdeal.Gen Cert.ReferenceIdeal.Read
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## The arguments are as launched

An argument's buffer is not an array of the first two regions and is not the result of any host operation before
the classifier, so walking back region by region and operation by operation it holds the launch contents. -/

theorem W4_arg2 (c : Dev nD) :
    W4 (F := Ideal) m ρ c (Proc.devRef .tc main_arg2) = m ((c.tc : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W4_arg3 (c : Dev nD) :
    W4 (F := Ideal) m ρ c (Proc.devRef .tc main_arg3) = m ((c.tc : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

theorem W4_arg4 (c : Dev nD) :
    W4 (F := Ideal) m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

theorem W4_arg12 (c : Dev nD) :
    W4 (F := Ideal) m ρ c (Proc.devRef .tc main_arg12) = m ((c.tc : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := rfl

theorem W4_arg13 (c : Dev nD) :
    W4 (F := Ideal) m ρ c (Proc.devRef .tc main_arg13) = m ((c.tc : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg13) := rfl

theorem W4_arg14 (c : Dev nD) :
    W4 (F := Ideal) m ρ c (Proc.devRef .tc main_arg14) = m ((c.tc : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg14) := rfl

theorem W4_arg15 (c : Dev nD) :
    W4 (F := Ideal) m ρ c (Proc.devRef .tc main_arg15) = m ((c.tc : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg15) := rfl

theorem W4_arg16 (c : Dev nD) :
    W4 (F := Ideal) m ρ c (Proc.devRef .tc main_arg16) = m ((c.tc : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg16) := rfl

theorem W4_arg17 (c : Dev nD) :
    W4 (F := Ideal) m ρ c (Proc.devRef .tc main_arg17) = m ((c.tc : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg17) := rfl

/-! ## The classifier's inputs -/

set_option maxHeartbeats 40000000 in
/-- The senders' rows: if the second region's output is the reference's h2, the array gathered at the sender
    indices is the reference's. -/
theorem sender_eq (c : Dev nD)
    (H : W4 (F := Ideal) m ρ c (Proc.devRef .tc main_v54)
      = val_main_v62 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V5 (F := Ideal) m ρ c main_v61
      = val_main_v69 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps2 (W4 m ρ c) (Proc.devRef .tc main_v61) = _
  after_results_simp
  rw [H, W4_arg2]
  unfold val_main_v69 val_main_v68 val_main_v67 val_main_v66 val_main_v65 val_main_v64 val_main_v63 val_main_c_12 val_main_c_13
  rfl

set_option maxHeartbeats 40000000 in
/-- The receivers' rows, likewise, at the receiver indices. -/
theorem receiver_eq (c : Dev nD)
    (H : W4 (F := Ideal) m ρ c (Proc.devRef .tc main_v54)
      = val_main_v62 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V5 (F := Ideal) m ρ c main_v68
      = val_main_v76 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps2 (W4 m ρ c) (Proc.devRef .tc main_v68) = _
  after_results_simp
  rw [H, W4_arg3]
  unfold val_main_v76 val_main_v75 val_main_v74 val_main_v73 val_main_v72 val_main_v71 val_main_v70 val_main_c_14 val_main_c_15
  rfl

set_option maxHeartbeats 40000000 in
/-- The transaction features are the argument itself. -/
theorem txf_eq (c : Dev nD) :
    V5 (F := Ideal) m ρ c main_arg4 = m ((c.tc : Thread nD τ).loc main_arg4) := by
  show StableHlo.after hostOps2 (W4 m ρ c) (Proc.devRef .tc main_arg4) = _
  after_results_simp
  exact W4_arg4 m ρ c

set_option maxHeartbeats 40000000 in
/-- The transaction layer's weights at (k, j): the narrowing is the identity. -/
theorem wt_apply (c : Dev nD) (k : Fin 16) (j : Fin 32) :
    V5 (F := Ideal) m ρ c main_v69 (ix2 k j) = m ((c.tc : Thread nD τ).loc main_arg12) (ix2 k j) := by
  have e : V5 (F := Ideal) m ρ c main_v69
      = (truncf (F := Ideal) .bf16 (m ((c.tc : Thread nD τ).loc main_arg12) : S16x32.Idx → Ideal .f32) bitsLt_bf16_f32 : FVec Ideal S16x32 .bf16) := by
    show StableHlo.after hostOps2 (W4 m ρ c) (Proc.devRef .tc main_v69) = _
    after_results_simp
    rw [W4_arg12]
  exact congrFun e (ix2 k j)

set_option maxHeartbeats 40000000 in
/-- The transaction layer's bias row at (0, j): the bias vector at j. -/
theorem bt_apply (c : Dev nD) (j : Fin 32) :
    V5 (F := Ideal) m ρ c main_v72 (ix2 (0 : Fin 1) j) = m ((c.tc : Thread nD τ).loc main_arg13) (ix1 j) := by
  have e : V5 (F := Ideal) m ρ c main_v72
      = (shapeCast S1x32 (m ((c.tc : Thread nD τ).loc main_arg13) : S32.Idx → Ideal .f32) shapeCasts_S32_S1x32 : S1x32.Idx → Ideal .f32) := by
    show StableHlo.after hostOps2 (W4 m ρ c) (Proc.devRef .tc main_v72) = _
    after_results_simp
    rw [W4_arg13]
    rfl
  exact (congrFun e (ix2 (0 : Fin 1) j)).trans (Cert.LibVecColumn.shapeCast_b_1b_apply _ _ 0 j)

set_option maxHeartbeats 40000000 in
/-- The hidden layer's weights at (k, j). -/
theorem wc1_apply (c : Dev nD) (k : Fin 288) (j : Fin 64) :
    V5 (F := Ideal) m ρ c main_v70 (ix2 k j) = m ((c.tc : Thread nD τ).loc main_arg14) (ix2 k j) := by
  have e : V5 (F := Ideal) m ρ c main_v70
      = (truncf (F := Ideal) .bf16 (m ((c.tc : Thread nD τ).loc main_arg14) : S288x64.Idx → Ideal .f32) bitsLt_bf16_f32 : FVec Ideal S288x64 .bf16) := by
    show StableHlo.after hostOps2 (W4 m ρ c) (Proc.devRef .tc main_v70) = _
    after_results_simp
    rw [W4_arg14]
  exact congrFun e (ix2 k j)

set_option maxHeartbeats 40000000 in
/-- The hidden layer's bias row at (0, j). -/
theorem bc1_apply (c : Dev nD) (j : Fin 64) :
    V5 (F := Ideal) m ρ c main_v73 (ix2 (0 : Fin 1) j) = m ((c.tc : Thread nD τ).loc main_arg15) (ix1 j) := by
  have e : V5 (F := Ideal) m ρ c main_v73
      = (shapeCast S1x64 (m ((c.tc : Thread nD τ).loc main_arg15) : S64.Idx → Ideal .f32) shapeCasts_S64_S1x64 : S1x64.Idx → Ideal .f32) := by
    show StableHlo.after hostOps2 (W4 m ρ c) (Proc.devRef .tc main_v73) = _
    after_results_simp
    rw [W4_arg15]
    rfl
  exact (congrFun e (ix2 (0 : Fin 1) j)).trans (Cert.LibVecColumn.shapeCast_b_1b_apply _ _ 0 j)

set_option maxHeartbeats 40000000 in
/-- The output layer's weights at (k, j). -/
theorem wc2_apply (c : Dev nD) (k : Fin 64) (j : Fin 1) :
    V5 (F := Ideal) m ρ c main_v71 (ix2 k j) = m ((c.tc : Thread nD τ).loc main_arg16) (ix2 k j) := by
  have e : V5 (F := Ideal) m ρ c main_v71
      = (truncf (F := Ideal) .bf16 (m ((c.tc : Thread nD τ).loc main_arg16) : S64x1.Idx → Ideal .f32) bitsLt_bf16_f32 : FVec Ideal S64x1 .bf16) := by
    show StableHlo.after hostOps2 (W4 m ρ c) (Proc.devRef .tc main_v71) = _
    after_results_simp
    rw [W4_arg16]
  exact congrFun e (ix2 k j)

set_option maxHeartbeats 40000000 in
/-- The output layer's bias row at (0, j). -/
theorem bc2_apply (c : Dev nD) (j : Fin 1) :
    V5 (F := Ideal) m ρ c main_v74 (ix2 (0 : Fin 1) j) = m ((c.tc : Thread nD τ).loc main_arg17) (ix1 j) := by
  have e : V5 (F := Ideal) m ρ c main_v74
      = (shapeCast S1x1 (m ((c.tc : Thread nD τ).loc main_arg17) : S1.Idx → Ideal .f32) shapeCasts_S1_S1x1 : S1x1.Idx → Ideal .f32) := by
    show StableHlo.after hostOps2 (W4 m ρ c) (Proc.devRef .tc main_v74) = _
    after_results_simp
    rw [W4_arg17]
    rfl
  exact (congrFun e (ix2 (0 : Fin 1) j)).trans (Cert.LibVecColumn.shapeCast_b_1b_apply _ _ 0 j)

end Cert.KernelIdeal.KHost

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.SageRegion0.lean ====
/-
  The value of the first neighbourhood-mean region, as one function of the arrays it finds.

  The region walks ten row blocks of 10000 rows. At each block it lays the block of the mean array
  beside the block of the node features, multiplies the 256-column rows by the whole 256 × 128 weight
  array, adds the bias row and takes the maximum with zero. On the extended reals the narrowing of
  the result is the identity and a product into a zero accumulator is a finite sum, so the stored
  value at (p, q) is the layer of Spec applied to row p of the two blocks. Block t of the two
  row-blocked inputs and of the output is rows t · 10000 … t · 10000 + 9999 of its array, the weight
  and bias blocks are their whole arrays, and the ten output blocks cover the output array: so the
  array ends holding the layer applied row by row.
-/
import proofs.«172716_j19241453486692_2_alg».proof.Proof.Gen.KernelIdeal.Frame
import proofs.«172716_j19241453486692_2_alg».proof.Proof.Spec
import proofs.«172716_j19241453486692_2_alg».proof.Proof.LibPlainDot
import Idealize.ShloMosaic.Lib.Pipeline.Value
import Idealize.ShloMosaic.Lib.ValueIdx

set_option maxRecDepth 16384

noncomputable section

open scoped BigOperators

namespace Cert.KernelIdeal.SageValue

open Cert.KernelIdeal Cert.KernelIdeal.Gen Idealize.ShloMosaic Idealize.ShloMosaic.ValueIdx
open Idealize.ShloMosaic.TcCoe Idealize.SL.Sem
open Idealize.ShloMosaic.Pipeline (Dat)

/-- The two row blocks laid side by side along the columns, read at row p and column k, is the
    side-by-side row of the two blocks' rows p: columns below 128 come from the first block, the
    others from the second at the column less 128. -/
theorem cat_apply (x0 x1 : S10000x128.Idx → EReal) (p : Fin 10000) (k : Fin 256) :
    concatenate S10000x256 1 [⟨S10000x128, x0⟩, ⟨S10000x128, x1⟩] concatenates_S10000x128_S10000x128_S10000x256_d1 (ix2 p k)
      = Cert.Spec.cat2 (fun k => x0 (ix2 p k)) (fun k => x1 (ix2 p k)) k := by
  unfold Cert.Spec.cat2
  by_cases h : k.val < 128
  · rw [dif_pos h]
    exact concatenate_pair_apply_left 1 x0 x1 _ (ix2 p k) rfl (ix2 p ⟨k.val, h⟩)
      (fun b => by match b with | ⟨0, _⟩ => rfl | ⟨1, _⟩ => rfl)
  · rw [dif_neg h]
    exact concatenate_pair_apply_right 1 x0 x1 _ (ix2 p k) rfl rfl (ix2 p ⟨k.val - 128, by omega⟩)
      (fun b hb => by match b, hb with | ⟨0, _⟩, _ => rfl | ⟨1, _⟩, hb => exact absurd rfl hb)
      (by show (k.val - 128) + 128 = k.val; omega)

/-- The bias row stretched over all rows, read at (p, q), is the bias at (0, q). -/
theorem bias_apply (x3 : S1x128.Idx → EReal) (p : Fin 10000) (q : Fin 128) :
    broadcastTo S10000x128 x3 broadcasts_S1x128_S10000x128 (ix2 p q) = x3 (ix2 0 q) :=
  broadcastTo_apply x3 _ (ix2 p q) (ix2 0 q) (fun a => by match a with | ⟨0, _⟩ => rfl | ⟨1, _⟩ => rfl)

/-- The body's stored value at row p and column q of the block: the neighbourhood-mean layer of
    row p of the two loaded blocks against the whole weight block and the bias row. -/
theorem pay_apply (x0 x1 : Vec Ideal S10000x128 .bf16) (x2 : Vec Ideal S256x128 .bf16) (x3 : Vec Ideal S1x128 .f32)
    (p : Fin 10000) (q : Fin 128) :
    k0_pay1 (F := Ideal) x0 x1 x2 x3 (ix2 p q)
      = Cert.Spec.sageRow (fun k => x0 (ix2 p k)) (fun k => x1 (ix2 p k)) (fun k j => x2 (ix2 k j)) (fun j => x3 (ix2 0 j)) q := by
  unfold k0_pay1 Cert.Spec.sageRow Cert.Spec.dense
  rw [shapeCast_self x0, shapeCast_self x1, shapeCast_self x2, shapeCast_self x3]
  rw [truncf_apply, maximumf_apply, addf_apply, broadcast_apply]
  refine congrArg₂ max (congrArg₂ (· + ·) ?_ (bias_apply x3 p q)) Ideal.ofBits_zero_f32
  refine (Cert.LibPlainDot.matmul_zero_apply (M := 10000) (K := 256) (N := 128) (φ₁ := .bf16) (φ₂ := .bf16) none _ x2 p q).trans ?_
  exact Finset.sum_congr rfl fun k _ => congrArg (· * x2 (ix2 k q)) (cat_apply x0 x1 p k)

/-- The output array of a neighbourhood-mean region as one function of its four input arrays:
    entry (n, j) is the layer applied to row n of the mean array and row n of the node features,
    against the whole weight array read as (k, j) and the bias read at (0, j). -/
def sageArr (A0 A1 : S100000x128.Idx → EReal) (A2 : S256x128.Idx → EReal) (A3 : S1x128.Idx → EReal) :
    S100000x128.Idx → EReal :=
  fun i => Cert.Spec.sageRow (fun k => A0 (ix2 (i 0) k)) (fun k => A1 (ix2 (i 0) k))
    (fun k j => A2 (ix2 k j)) (fun j => A3 (ix2 0 j)) (i 1)

/-- The layer's value depends only on its four row arguments and the column. -/
theorem sageRow_congr {a a' h h' : Fin 128 → EReal} {w w' : Fin 256 → Fin 128 → EReal} {b b' : Fin 128 → EReal}
    {q q' : Fin 128} (ea : a = a') (eh : h = h') (ew : w = w') (eb : b = b') (eq : q = q') :
    Cert.Spec.sageRow a h w b q = Cert.Spec.sageRow a' h' w' b' q' := by
  subst ea eh ew eb eq; rfl

/-- The stored value of a point against the layer's array, over abstract blocks: when the two row
    blocks hold rows T · 10000 + p of the arrays A0, A1 and the weight and bias blocks hold A2, A3,
    the stored value at block index j is the layer's array at the index i whose row is
    T · 10000 + (row of j) and whose column is j's. -/
theorem block_eq (A0 A1 : S100000x128.Idx → EReal) (A2 : S256x128.Idx → EReal) (A3 : S1x128.Idx → EReal)
    (x0 x1 : Vec Ideal S10000x128 .bf16) (x2 : Vec Ideal S256x128 .bf16) (x3 : Vec Ideal S1x128 .f32) (T : Nat)
    (h0 : ∀ (p : Fin 10000) (k : Fin 128) (r : Fin 100000), r.val = T * 10000 + p.val → x0 (ix2 p k) = A0 (ix2 r k))
    (h1 : ∀ (p : Fin 10000) (k : Fin 128) (r : Fin 100000), r.val = T * 10000 + p.val → x1 (ix2 p k) = A1 (ix2 r k))
    (h2 : ∀ (k : Fin 256) (q : Fin 128), x2 (ix2 k q) = A2 (ix2 k q))
    (h3 : ∀ (q : Fin 128), x3 (ix2 0 q) = A3 (ix2 0 q))
    (j : S10000x128.Idx) (i : S100000x128.Idx) (hi0 : (i 0).val = T * 10000 + (j 0).val) (hi1 : (i 1).val = (j 1).val) :
    k0_pay1 (F := Ideal) x0 x1 x2 x3 j = sageArr A0 A1 A2 A3 i := by
  refine (congrArg (k0_pay1 (F := Ideal) x0 x1 x2 x3) (eq_ix2 j)).trans ?_
  refine (pay_apply x0 x1 x2 x3 (j 0) (j 1)).trans ?_
  unfold sageArr
  exact sageRow_congr (funext fun k => h0 (j 0) k (i 0) hi0) (funext fun k => h1 (j 0) k (i 0) hi0)
    (funext fun k => funext fun q => h2 k q) (funext fun q => h3 q) (Fin.ext hi1.symm)
variable (V : (c : Dev nD) → (b : Ref sig .tc) → Buf (Elt Ideal) ((c : Thread nD τ).loc b))

/-- The offsets (0, 0), as the constant function. -/
theorem zeros2 : (![0, 0] : Fin 2 → Nat) = fun _ => 0 := funext fun a => by fin_cases a <;> rfl

/-- The block indices of the five windows over the grid: the two row-blocked inputs and the output
    sit at block (t, 0), the weights and the bias always at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the mean window's block at point t is row t · 10000 + p of its array. -/
theorem blk0_0_apply (c : Dev nD) (t : Fin cfg0.N) (p : Fin 10000) (k : Fin 128) (r : Fin 100000)
    (hr : r.val = t.val * 10000 + p.val) :
    (iblk0 V c 0 t : Vec Ideal S10000x128 .bf16) (ix2 p k) = (V c (Pipeline.arrRef spec0 0) : S100000x128.Idx → EReal) (ix2 r k) := by
  obtain ⟨e00, e01, -⟩ := idx_facts0 t
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- Row p of the node-feature window's block at point t is row t · 10000 + p of its array. -/
theorem blk0_1_apply (c : Dev nD) (t : Fin cfg0.N) (p : Fin 10000) (k : Fin 128) (r : Fin 100000)
    (hr : r.val = t.val * 10000 + p.val) :
    (iblk0 V c 1 t : Vec Ideal S10000x128 .bf16) (ix2 p k) = (V c (Pipeline.arrRef spec0 1) : S100000x128.Idx → EReal) (ix2 r k) := by
  obtain ⟨-, -, e10, e11, -⟩ := idx_facts0 t
  show (V c (Pipeline.arrRef spec0 1) : S100000x128.Idx → EReal) (((cfg0.win 1).blk t).view.emb (ix2 p k)) = _
  refine congrArg _ (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- The weight window's block is the whole weight array at every point. -/
theorem blk0_2_apply (c : Dev nD) (t : Fin cfg0.N) (k : Fin 256) (j : Fin 128) :
    (iblk0 V c 2 t : Vec Ideal S256x128 .bf16) (ix2 k j) = (V c (Pipeline.arrRef spec0 2) : S256x128.Idx → EReal) (ix2 k j) := by
  obtain ⟨-, -, -, -, e20, e21, -⟩ := idx_facts0 t
  show (V c (Pipeline.arrRef spec0 2) : S256x128.Idx → EReal) (((cfg0.win 2).blk t).view.emb (ix2 k j)) = _
  refine congrArg _ (funext fun a => Fin.ext ?_)
  match a with
  | ⟨0, _⟩ => show win0_2.index t (0 : Fin 2) * 256 + 1 * k.val = k.val; omega
  | ⟨1, _⟩ => show win0_2.index t (1 : Fin 2) * 128 + 1 * j.val = j.val; omega

/-- The bias window's block is the whole bias row at every point. -/
theorem blk0_3_apply (c : Dev nD) (t : Fin cfg0.N) (z : Fin 1) (j : Fin 128) :
    (iblk0 V c 3 t : Vec Ideal S1x128 .f32) (ix2 z j) = (V c (Pipeline.arrRef spec0 3) : S1x128.Idx → EReal) (ix2 z j) := by
  obtain ⟨-, -, -, -, -, -, e30, e31, -⟩ := idx_facts0 t
  show (V c (Pipeline.arrRef spec0 3) : S1x128.Idx → EReal) (((cfg0.win 3).blk t).view.emb (ix2 z j)) = _
  refine congrArg _ (funext fun a => Fin.ext ?_)
  match a with
  | ⟨0, _⟩ => show win0_3.index t (0 : Fin 2) * 1 + 1 * z.val = z.val; omega
  | ⟨1, _⟩ => show win0_3.index t (1 : Fin 2) * 128 + 1 * j.val = j.val; omega

/-- What point t writes back is block t of the layer's array: the stored value at (p, q) is the
    layer on row p of the two row blocks, which are rows t · 10000 + p of their arrays, and the
    output block's entry (p, q) is entry (t · 10000 + p, q) of the output array. -/
theorem flushed_eq0 (c : Dev nD) (t : Fin cfg0.N) :
    (dat0 (F := Ideal) V c).flushed 4 t = ((cfg0.win 4).blk t).view.read (Elt Ideal)
      (sageArr (V c (Pipeline.arrRef spec0 0)) (V c (Pipeline.arrRef spec0 1)) (V c (Pipeline.arrRef spec0 2)) (V c (Pipeline.arrRef spec0 3))) := by
  show (cfg0.win 4).cut (grid0.coords t) ((dat0 (F := Ideal) V c).after 4 t) = _
  rw [after0_4]
  unfold out0_4
  rw [View.canon_unit_zero zeros2]
  simp only [View.ld_unit_zero (S := S10000x128) zeros2, View.ld_unit_zero (S := S256x128) zeros2, View.ld_unit_zero (S := S1x128) zeros2]
  funext j
  show k0_pay1 (F := Ideal) (iblk0 V c 0 t) (iblk0 V c 1 t) (iblk0 V c 2 t) (iblk0 V c 3 t) j
    = sageArr (V c (Pipeline.arrRef spec0 0)) (V c (Pipeline.arrRef spec0 1)) (V c (Pipeline.arrRef spec0 2)) (V c (Pipeline.arrRef spec0 3)) (((cfg0.win 4).blk t).view.emb j)
  obtain ⟨-, -, -, -, -, -, -, -, e40, e41⟩ := idx_facts0 t
  exact block_eq (V c (Pipeline.arrRef spec0 0)) (V c (Pipeline.arrRef spec0 1)) (V c (Pipeline.arrRef spec0 2)) (V c (Pipeline.arrRef spec0 3))
    (iblk0 V c 0 t) (iblk0 V c 1 t) (iblk0 V c 2 t) (iblk0 V c 3 t) t.val
    (fun p k r hr => blk0_0_apply V c t p k r hr) (fun p k r hr => blk0_1_apply V c t p k r hr)
    (fun k q => blk0_2_apply V c t k q) (fun q => blk0_3_apply V c t 0 q) j (((cfg0.win 4).blk t).view.emb j)
    (by show win0_4.index t (0 : Fin 2) * 10000 + 1 * (j 0).val = _; omega)
    (by show win0_4.index t (1 : Fin 2) * 128 + 1 * (j 1).val = _; omega)

/-- An index of the output array is in point t's block iff each coordinate is in the block's range. -/
theorem mem_blk0 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v38).slice (win0_4.rect t)).set ↔ _
  rw [View.set_slice_whole, Rect.mem_set_unit]
  exact Iff.rfl

/-- Every index of the output array is in some point's block: row r is in the block of point r / 10000. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show (i 0).val / 10000 < 10; omega⟩, rfl⟩
  obtain ⟨-, -, -, -, -, -, -, -, e40, e41⟩ := idx_facts0 t
  refine ⟨t, flush0_4 t, ?_⟩
  rw [mem_blk0]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- The output array after the region: the layer's array of the four input arrays as the region finds them. -/
theorem final0 (c : Dev nD) : (dat0 (F := Ideal) V c).arrAt 4 cfg0.N
    = sageArr (V c (Pipeline.arrRef spec0 0)) (V c (Pipeline.arrRef spec0 1)) (V c (Pipeline.arrRef spec0 2)) (V c (Pipeline.arrRef spec0 3)) :=
  (dat0 (F := Ideal) V c).arrAt_eq_of_cover 4
    (sageArr (V c (Pipeline.arrRef spec0 0)) (V c (Pipeline.arrRef spec0 1)) (V c (Pipeline.arrRef spec0 2)) (V c (Pipeline.arrRef spec0 3)))
    (fun t _ => flushed_eq0 V c t) cover0

end Cert.KernelIdeal.SageValue

end
-- ==== Proof.SageRegion1.lean ====
/-
  The value of the second neighbourhood-mean region, as one function of the arrays it finds.

  The region's body is the same arithmetic as the first region's, on the same block shapes and the
  same grid of ten row blocks; only the arrays differ. So the stored value of a point is the same
  function of its blocks, the blocks are the same rows of their arrays, the ten output blocks cover
  the output array, and the array ends holding the layer of Spec applied row by row.
-/
import proofs.«172716_j19241453486692_2_alg».proof.Proof.SageRegion0

set_option maxRecDepth 16384

noncomputable section

open scoped BigOperators

namespace Cert.KernelIdeal.SageValue

open Cert.KernelIdeal Cert.KernelIdeal.Gen Idealize.ShloMosaic Idealize.ShloMosaic.ValueIdx
open Idealize.ShloMosaic.TcCoe Idealize.SL.Sem
open Idealize.ShloMosaic.Pipeline (Dat)

/-- The second region's body stores the same function of its loaded blocks as the first's. -/
theorem pay_same (x0 x1 : Vec Ideal S10000x128 .bf16) (x2 : Vec Ideal S256x128 .bf16) (x3 : Vec Ideal S1x128 .f32) :
    k1_pay1 (F := Ideal) x0 x1 x2 x3 = k0_pay1 (F := Ideal) x0 x1 x2 x3 := rfl

/-- The stored value of a point of the second region against the layer's array, over abstract blocks. -/
theorem block1_eq (A0 A1 : S100000x128.Idx → EReal) (A2 : S256x128.Idx → EReal) (A3 : S1x128.Idx → EReal)
    (x0 x1 : Vec Ideal S10000x128 .bf16) (x2 : Vec Ideal S256x128 .bf16) (x3 : Vec Ideal S1x128 .f32) (T : Nat)
    (h0 : ∀ (p : Fin 10000) (k : Fin 128) (r : Fin 100000), r.val = T * 10000 + p.val → x0 (ix2 p k) = A0 (ix2 r k))
    (h1 : ∀ (p : Fin 10000) (k : Fin 128) (r : Fin 100000), r.val = T * 10000 + p.val → x1 (ix2 p k) = A1 (ix2 r k))
    (h2 : ∀ (k : Fin 256) (q : Fin 128), x2 (ix2 k q) = A2 (ix2 k q))
    (h3 : ∀ (q : Fin 128), x3 (ix2 0 q) = A3 (ix2 0 q))
    (j : S10000x128.Idx) (i : S100000x128.Idx) (hi0 : (i 0).val = T * 10000 + (j 0).val) (hi1 : (i 1).val = (j 1).val) :
    k1_pay1 (F := Ideal) x0 x1 x2 x3 j = sageArr A0 A1 A2 A3 i :=
  (congrFun (pay_same x0 x1 x2 x3) j).trans (block_eq A0 A1 A2 A3 x0 x1 x2 x3 T h0 h1 h2 h3 j i hi0 hi1)

variable (V : (c : Dev nD) → (b : Ref sig .tc) → Buf (Elt Ideal) ((c : Thread nD τ).loc b))

/-- The block indices of the five windows over the grid: the two row-blocked inputs and the output
    sit at block (t, 0), the weights and the bias always at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the first window's block (the neighbour means) at point t is row t · 10000 + p of its array. -/
theorem blk1_0_apply (c : Dev nD) (t : Fin cfg1.N) (p : Fin 10000) (k : Fin 128) (r : Fin 100000)
    (hr : r.val = t.val * 10000 + p.val) :
    (iblk1 V c 0 t : Vec Ideal S10000x128 .bf16) (ix2 p k) = (V c (Pipeline.arrRef spec1 0) : S100000x128.Idx → EReal) (ix2 r k) := by
  obtain ⟨e00, e01, -⟩ := idx_facts1 t
  show (V c (Pipeline.arrRef spec1 0) : S100000x128.Idx → EReal) (((cfg1.win 0).blk t).view.emb (ix2 p k)) = _
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- Row p of the second window's block (the nodes' own rows) at point t is row t · 10000 + p of its array. -/
theorem blk1_1_apply (c : Dev nD) (t : Fin cfg1.N) (p : Fin 10000) (k : Fin 128) (r : Fin 100000)
    (hr : r.val = t.val * 10000 + p.val) :
    (iblk1 V c 1 t : Vec Ideal S10000x128 .bf16) (ix2 p k) = (V c (Pipeline.arrRef spec1 1) : S100000x128.Idx → EReal) (ix2 r k) := by
  obtain ⟨-, -, e10, e11, -⟩ := idx_facts1 t
  show (V c (Pipeline.arrRef spec1 1) : S100000x128.Idx → EReal) (((cfg1.win 1).blk t).view.emb (ix2 p k)) = _
  refine congrArg _ (funext fun a => Fin.ext ?_)
  match a with
  | ⟨0, _⟩ => show win1_1.index t (0 : Fin 2) * 10000 + 1 * p.val = r.val; omega
  | ⟨1, _⟩ => show win1_1.index t (1 : Fin 2) * 128 + 1 * k.val = k.val; omega

/-- The weight window's block is the whole weight array at every point. -/
theorem blk1_2_apply (c : Dev nD) (t : Fin cfg1.N) (k : Fin 256) (j : Fin 128) :
    (iblk1 V c 2 t : Vec Ideal S256x128 .bf16) (ix2 k j) = (V c (Pipeline.arrRef spec1 2) : S256x128.Idx → EReal) (ix2 k j) := by
  obtain ⟨-, -, -, -, e20, e21, -⟩ := idx_facts1 t
  show (V c (Pipeline.arrRef spec1 2) : S256x128.Idx → EReal) (((cfg1.win 2).blk t).view.emb (ix2 k j)) = _
  refine congrArg _ (funext fun a => Fin.ext ?_)
  match a with
  | ⟨0, _⟩ => show win1_2.index t (0 : Fin 2) * 256 + 1 * k.val = k.val; omega
  | ⟨1, _⟩ => show win1_2.index t (1 : Fin 2) * 128 + 1 * j.val = j.val; omega

/-- The bias window's block is the whole bias row at every point. -/
theorem blk1_3_apply (c : Dev nD) (t : Fin cfg1.N) (z : Fin 1) (j : Fin 128) :
    (iblk1 V c 3 t : Vec Ideal S1x128 .f32) (ix2 z j) = (V c (Pipeline.arrRef spec1 3) : S1x128.Idx → EReal) (ix2 z j) := by
  obtain ⟨-, -, -, -, -, -, e30, e31, -⟩ := idx_facts1 t
  show (V c (Pipeline.arrRef spec1 3) : S1x128.Idx → EReal) (((cfg1.win 3).blk t).view.emb (ix2 z j)) = _
  refine congrArg _ (funext fun a => Fin.ext ?_)
  match a with
  | ⟨0, _⟩ => show win1_3.index t (0 : Fin 2) * 1 + 1 * z.val = z.val; omega
  | ⟨1, _⟩ => show win1_3.index t (1 : Fin 2) * 128 + 1 * j.val = j.val; omega

/-- What point t writes back is block t of the layer's array: the stored value at (p, q) is the
    layer on row p of the two row blocks, which are rows t · 10000 + p of their arrays, and the
    output block's entry (p, q) is entry (t · 10000 + p, q) of the output array. -/
theorem flushed_eq1 (c : Dev nD) (t : Fin cfg1.N) :
    (dat1 (F := Ideal) V c).flushed 4 t = ((cfg1.win 4).blk t).view.read (Elt Ideal)
      (sageArr (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zeros2]
  simp only [View.ld_unit_zero (S := S10000x128) zeros2, View.ld_unit_zero (S := S256x128) zeros2, View.ld_unit_zero (S := S1x128) zeros2]
  funext j
  show k1_pay1 (F := Ideal) (iblk1 V c 0 t) (iblk1 V c 1 t) (iblk1 V c 2 t) (iblk1 V c 3 t) j
    = sageArr (V c (Pipeline.arrRef spec1 0)) (V c (Pipeline.arrRef spec1 1)) (V c (Pipeline.arrRef spec1 2)) (V c (Pipeline.arrRef spec1 3)) (((cfg1.win 4).blk t).view.emb j)
  obtain ⟨-, -, -, -, -, -, -, -, e40, e41⟩ := idx_facts1 t
  exact block1_eq (V c (Pipeline.arrRef spec1 0)) (V c (Pipeline.arrRef spec1 1)) (V c (Pipeline.arrRef spec1 2)) (V c (Pipeline.arrRef spec1 3))
    (iblk1 V c 0 t) (iblk1 V c 1 t) (iblk1 V c 2 t) (iblk1 V c 3 t) t.val
    (fun p k r hr => blk1_0_apply V c t p k r hr) (fun p k r hr => blk1_1_apply V c t p k r hr)
    (fun k q => blk1_2_apply V c t k q) (fun q => blk1_3_apply V c t 0 q) j (((cfg1.win 4).blk t).view.emb j)
    (by show win1_4.index t (0 : Fin 2) * 10000 + 1 * (j 0).val = _; omega)
    (by show win1_4.index t (1 : Fin 2) * 128 + 1 * (j 1).val = _; omega)

/-- An index of the output array is in point t's block iff each coordinate is in the block's range. -/
theorem mem_blk1 (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v54).slice (win1_4.rect t)).set ↔ _
  rw [View.set_slice_whole, Rect.mem_set_unit]
  exact Iff.rfl

/-- Every index of the output array is in some point's block: row r is in the block of point r / 10000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The output array after the region: the layer's array of the four input arrays as the region finds them. -/
theorem final1 (c : Dev nD) : (dat1 (F := Ideal) V c).arrAt 4 cfg1.N
    = sageArr (V c (Pipeline.arrRef spec1 0)) (V c (Pipeline.arrRef spec1 1)) (V c (Pipeline.arrRef spec1 2)) (V c (Pipeline.arrRef spec1 3)) :=
  (dat1 (F := Ideal) V c).arrAt_eq_of_cover 4
    (sageArr (V c (Pipeline.arrRef spec1 0)) (V c (Pipeline.arrRef spec1 1)) (V c (Pipeline.arrRef spec1 2)) (V c (Pipeline.arrRef spec1 3)))
    (fun t _ => flushed_eq1 V c t) cover1

end Cert.KernelIdeal.SageValue

end
-- ==== Proof.ClsPayload.lean ====
/-
  The classifier block's arithmetic, one output entry at a time, on the extended reals.

  The block of 2048 rows is computed by three linear layers. Rounding to a narrower float type is the identity on
  the extended reals, the zero word denotes 0, and a product into a zero accumulator is a plain finite sum, so
  each layer read at an entry (p, q) is Σ_k x(p, k) · w(k, q) + b(0, q), with max(·, 0) after the first two.
  The middle layer's input row is three rows laid side by side: row p of the two gathered blocks and row p of
  the first layer's result. So entry (p, 0) of the block is the classifier's row function of row p of the three
  moving inputs and of the whole weight and bias arrays.
-/
import proofs.«172716_j19241453486692_2_alg».proof.Proof.Gen.KernelIdeal.Skeleton
import proofs.«172716_j19241453486692_2_alg».proof.Proof.Spec
import proofs.«172716_j19241453486692_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.ClsValue

open Cert.KernelIdeal Cert.KernelIdeal.Gen Idealize.ShloMosaic Idealize.ShloMosaic.ValueIdx

/-- A linear layer read at entry (p, q): the product into the zero accumulator is the sum over k, the [1, N] bias
    broadcast over the rows is read at (0, q). -/
theorem linear_apply {M K N : Nat} {φ₁ φ₂ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (FloatOps.matmul (DotDims.plain M K N) none x w (constant (F := Ideal) ⟨2, ![M, N]⟩ .f32 0x00000000#32))
        (broadcastTo ⟨2, ![M, N]⟩ b hb) (ix2 p q)
      = Cert.Spec.dense (fun k => x (ix2 p k)) (fun k j => w (ix2 k j)) (fun j => b (ix2 0 j)) q := by
  rw [addf_apply, Cert.LibPlainDot.matmul_zero_apply, broadcastTo_1b_ab_apply]
  rfl

/-- The same followed by max(·, 0) and a rounding, which is the identity on the extended reals. -/
theorem reluLinear_apply {M K N : Nat} {φ₁ φ₂ ψ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (hψ : ψ.bits < FTy.f32.bits)
    (p : Fin M) (q : Fin N) :
    (truncf ψ (maximumf
        (addf (FloatOps.matmul (DotDims.plain M K N) none x w (constant (F := Ideal) ⟨2, ![M, N]⟩ .f32 0x00000000#32))
          (broadcastTo ⟨2, ![M, N]⟩ b hb))
        (broadcast ⟨2, ![M, N]⟩ (Scalar.ofBits (F := Ideal) .f32 0x00000000#32))) hψ : FVec Ideal ⟨2, ![M, N]⟩ ψ) (ix2 p q)
      = max (Cert.Spec.dense (fun k => x (ix2 p k)) (fun k j => w (ix2 k j)) (fun j => b (ix2 0 j)) q) 0 := by
  rw [truncf_apply, maximumf_apply, linear_apply, broadcast_apply]
  exact congrArg (max _) Ideal.ofBits_zero_f32

/-- Three blocks laid side by side along the columns, read at (p, k): columns 0..127 are the first block's,
    128..255 the second's, 256..287 the third's. -/
theorem cat3_apply (x y : FVec Ideal S2048x128 .bf16) (z : FVec Ideal S2048x32 .bf16)
    (h : Shape.Concatenates [S2048x128, S2048x128, S2048x32] S2048x288 1) (p : Fin 2048) (k : Fin 288) :
    concatenate S2048x288 1 [⟨S2048x128, x⟩, ⟨S2048x128, y⟩, ⟨S2048x32, z⟩] h (ix2 p k)
      = Cert.Spec.cat3 (fun c => x (ix2 p c)) (fun c => y (ix2 p c)) (fun c => z (ix2 p c)) k := by
  unfold Cert.Spec.cat3
  split
  · next h1 =>
    refine concatenate_apply_piece (t := S2048x288) 1 [⟨S2048x128, x⟩, ⟨S2048x128, y⟩, ⟨S2048x32, z⟩] h (ix2 p k) 0 (by show (0 : ℕ) < 3; omega) S2048x128 x rfl rfl 0 rfl
      (ix2 p ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (t := S2048x288) 1 [⟨S2048x128, x⟩, ⟨S2048x128, y⟩, ⟨S2048x32, z⟩] h (ix2 p k) 1 (by show (1 : ℕ) < 3; omega) S2048x128 y rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (t := S2048x288) 1 [⟨S2048x128, x⟩, ⟨S2048x128, y⟩, ⟨S2048x32, z⟩] h (ix2 p k) 2 (by show (2 : ℕ) < 3; omega) S2048x32 z rfl rfl 256 rfl
        (ix2 p ⟨k.val - 256, by have := k.isLt; omega⟩) (fun b hb => ?_) ?_
      · match b with
        | ⟨0, _⟩ => rfl
        | ⟨1, _⟩ => exact absurd rfl hb
      · show 256 + (k.val - 256) = k.val
        omega

/-- Entry (p, 0) of the block the body stores is the classifier's row function of row p of the three moving
    blocks and of the weight and bias blocks read as (k, j) and (0, j). -/
theorem pay_apply (x0 x1 : FVec Ideal S2048x128 .bf16) (x2 : FVec Ideal S2048x16 .f32) (x3 : FVec Ideal S16x32 .bf16)
    (x4 : FVec Ideal S1x32 .f32) (x5 : FVec Ideal S288x64 .bf16) (x6 : FVec Ideal S1x64 .f32) (x7 : FVec Ideal S64x1 .bf16)
    (x8 : FVec Ideal S1x1 .f32) (p : Fin 2048) (u : Fin 1) :
    k2_pay1 (F := Ideal) x0 x1 x2 x3 x4 x5 x6 x7 x8 (ix2 p u)
      = Cert.Spec.clsRow (fun k => x0 (ix2 p k)) (fun k => x1 (ix2 p k)) (fun k => x2 (ix2 p k))
          (fun k j => x3 (ix2 k j)) (fun j => x4 (ix2 0 j)) (fun k j => x5 (ix2 k j)) (fun j => x6 (ix2 0 j))
          (fun k j => x7 (ix2 k j)) (fun j => x8 (ix2 0 j)) := by
  obtain rfl : u = 0 := Subsingleton.elim _ _
  unfold k2_pay1
  simp only [shapeCast_self]
  refine (linear_apply (M := 2048) (K := 64) (N := 1) _ x7 x8 _ p 0).trans ?_
  unfold Cert.Spec.clsRow
  refine congrArg (fun f => Cert.Spec.dense f _ _ 0) (funext fun k => ?_)
  refine (reluLinear_apply (M := 2048) (K := 288) (N := 64) _ x5 x6 _ _ p k).trans ?_
  refine congrArg (fun f => max (Cert.Spec.dense f _ _ k) 0) (funext fun c => ?_)
  refine (cat3_apply _ _ _ _ p c).trans ?_
  simp only [shapeCast_self]
  refine congrArg (fun f => Cert.Spec.cat3 _ _ f c) (funext fun j => ?_)
  exact reluLinear_apply (M := 2048) (K := 16) (N := 32) _ x3 x4 _ _ p j

end Cert.KernelIdeal.ClsValue

end
-- ==== Proof.ClsBlocks.lean ====
/-
  The classifier region's input blocks read off their arrays, and the output array as one function.

  The region runs over 4 grid points; point t works on rows 2048 t .. 2048 t + 2047. Its three moving inputs are
  cut into blocks of 2048 rows, so element (p, k) of a moving block at point t is element (2048 t + p, k) of its
  array; the weight and bias arrays are read whole at every point, so their block is the array itself. The output
  array function has, at (n, 0), the classifier's row function of row n of the three row-indexed arrays and of
  the whole weight and bias arrays.
-/
import proofs.«172716_j19241453486692_2_alg».proof.Proof.Gen.KernelIdeal.Frame
import proofs.«172716_j19241453486692_2_alg».proof.Proof.ClsPayload
import Idealize.ShloMosaic.Lib.Pipeline.Value

noncomputable section

namespace Cert.KernelIdeal.ClsValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output array: entry (n, 0) is the classifier's row function of row n of the three row-indexed arrays and
    of the weight and bias arrays read as (k, j) and (0, j). -/
def clsArr (A0 A1 : S8192x128.Idx → EReal) (A2 : S8192x16.Idx → EReal) (A3 : S16x32.Idx → EReal)
    (A4 : S1x32.Idx → EReal) (A5 : S288x64.Idx → EReal) (A6 : S1x64.Idx → EReal) (A7 : S64x1.Idx → EReal)
    (A8 : S1x1.Idx → EReal) : S8192x1.Idx → EReal :=
  fun i => Cert.Spec.clsRow (fun k => A0 (ix2 (i 0 : Fin 8192) k)) (fun k => A1 (ix2 (i 0 : Fin 8192) k))
    (fun k => A2 (ix2 (i 0 : Fin 8192) k)) (fun k j => A3 (ix2 k j)) (fun j => A4 (ix2 0 j)) (fun k j => A5 (ix2 k j))
    (fun j => A6 (ix2 0 j)) (fun k j => A7 (ix2 k j)) (fun j => A8 (ix2 0 j))

theorem zero_offsets : (![0, 0] : Fin 2 → Nat) = fun _ => 0 := funext fun a => by fin_cases a <;> rfl

/-- The row function depends on its nine arguments only through their values. -/
theorem clsRow_congr {s s' r r' : Fin 128 → EReal} {x x' : Fin 16 → EReal} {wt wt' : Fin 16 → Fin 32 → EReal}
    {bt bt' : Fin 32 → EReal} {wc1 wc1' : Fin 288 → Fin 64 → EReal} {bc1 bc1' : Fin 64 → EReal}
    {wc2 wc2' : Fin 64 → Fin 1 → EReal} {bc2 bc2' : Fin 1 → EReal}
    (hs : ∀ k, s k = s' k) (hr : ∀ k, r k = r' k) (hx : ∀ k, x k = x' k) (hwt : ∀ k j, wt k j = wt' k j)
    (hbt : ∀ j, bt j = bt' j) (hwc1 : ∀ k j, wc1 k j = wc1' k j) (hbc1 : ∀ j, bc1 j = bc1' j)
    (hwc2 : ∀ k j, wc2 k j = wc2' k j) (hbc2 : ∀ j, bc2 j = bc2' j) :
    Cert.Spec.clsRow s r x wt bt wc1 bc1 wc2 bc2 = Cert.Spec.clsRow s' r' x' wt' bt' wc1' bc1' wc2' bc2' := by
  obtain rfl : s = s' := funext hs
  obtain rfl : r = r' := funext hr
  obtain rfl : x = x' := funext hx
  obtain rfl : wt = wt' := funext fun k => funext (hwt k)
  obtain rfl : bt = bt' := funext hbt
  obtain rfl : wc1 = wc1' := funext fun k => funext (hwc1 k)
  obtain rfl : bc1 = bc1' := funext hbc1
  obtain rfl : wc2 = wc2' := funext fun k => funext (hwc2 k)
  obtain rfl : bc2 = bc2' := funext hbc2
  rfl

/-- The printed index maps, decided over the 4 grid points: the three moving inputs and the output are at block
    (t, 0), the six weight and bias windows always at block (0, 0). -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-! ## Each input block read off its array -/

/-- Element (p, k) of the first gathered block at point t is element (2048 t + p, k) of its array. -/
theorem rows0 (c : Dev nD) (t : Fin cfg2.N) (p : Fin 2048) (k : Fin 128) (r : Fin 8192) (hr : r.val = t.val * 2048 + p.val) :
    (iblk2 V c 0 t : FVec Ideal S2048x128 .bf16) (ix2 p k) = (V c (Pipeline.arrRef spec2 0) : S8192x128.Idx → EReal) (ix2 r k) := by
  obtain ⟨e0, e1⟩ := (block_index t).1
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2048 + 1 * p.val = r.val; rw [e0, hr]; omega
  | ⟨1, _⟩ => show win2_0.index t (1 : Fin 2) * 128 + 1 * k.val = k.val; rw [e1]; omega

/-- The same for the second gathered block. -/
theorem rows1 (c : Dev nD) (t : Fin cfg2.N) (p : Fin 2048) (k : Fin 128) (r : Fin 8192) (hr : r.val = t.val * 2048 + p.val) :
    (iblk2 V c 1 t : FVec Ideal S2048x128 .bf16) (ix2 p k) = (V c (Pipeline.arrRef spec2 1) : S8192x128.Idx → EReal) (ix2 r k) := by
  obtain ⟨e0, e1⟩ := (block_index t).2.1
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 2048 + 1 * p.val = r.val; rw [e0, hr]; omega
  | ⟨1, _⟩ => show win2_1.index t (1 : Fin 2) * 128 + 1 * k.val = k.val; rw [e1]; omega

/-- The same for the block of transaction features, 16 columns wide. -/
theorem rows2 (c : Dev nD) (t : Fin cfg2.N) (p : Fin 2048) (k : Fin 16) (r : Fin 8192) (hr : r.val = t.val * 2048 + p.val) :
    (iblk2 V c 2 t : FVec Ideal S2048x16 .f32) (ix2 p k) = (V c (Pipeline.arrRef spec2 2) : S8192x16.Idx → EReal) (ix2 r k) := by
  obtain ⟨e0, e1⟩ := (block_index t).2.2.1
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 2048 + 1 * p.val = r.val; rw [e0, hr]; omega
  | ⟨1, _⟩ => show win2_2.index t (1 : Fin 2) * 16 + 1 * k.val = k.val; rw [e1]; omega

/-- The first layer's weights are read whole at every point: the block is the array. -/
theorem whole3 (c : Dev nD) (t : Fin cfg2.N) (k : Fin 16) (j : Fin 32) :
    (iblk2 V c 3 t : FVec Ideal S16x32 .bf16) (ix2 k j) = (V c (Pipeline.arrRef spec2 3) : S16x32.Idx → EReal) (ix2 k j) := by
  obtain ⟨e0, e1⟩ := (block_index t).2.2.2.1
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 16 + 1 * k.val = k.val; rw [e0]; omega
  | ⟨1, _⟩ => show win2_3.index t (1 : Fin 2) * 32 + 1 * j.val = j.val; rw [e1]; omega

/-- The first layer's bias, whole at every point. -/
theorem whole4 (c : Dev nD) (t : Fin cfg2.N) (k : Fin 1) (j : Fin 32) :
    (iblk2 V c 4 t : FVec Ideal S1x32 .f32) (ix2 k j) = (V c (Pipeline.arrRef spec2 4) : S1x32.Idx → EReal) (ix2 k j) := by
  obtain ⟨e0, e1⟩ := (block_index t).2.2.2.2.1
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1 + 1 * k.val = k.val; rw [e0]; omega
  | ⟨1, _⟩ => show win2_4.index t (1 : Fin 2) * 32 + 1 * j.val = j.val; rw [e1]; omega

/-- The second layer's weights, whole at every point. -/
theorem whole5 (c : Dev nD) (t : Fin cfg2.N) (k : Fin 288) (j : Fin 64) :
    (iblk2 V c 5 t : FVec Ideal S288x64 .bf16) (ix2 k j) = (V c (Pipeline.arrRef spec2 5) : S288x64.Idx → EReal) (ix2 k j) := by
  obtain ⟨e0, e1⟩ := (block_index t).2.2.2.2.2.1
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 288 + 1 * k.val = k.val; rw [e0]; omega
  | ⟨1, _⟩ => show win2_5.index t (1 : Fin 2) * 64 + 1 * j.val = j.val; rw [e1]; omega

/-- The second layer's bias, whole at every point. -/
theorem whole6 (c : Dev nD) (t : Fin cfg2.N) (k : Fin 1) (j : Fin 64) :
    (iblk2 V c 6 t : FVec Ideal S1x64 .f32) (ix2 k j) = (V c (Pipeline.arrRef spec2 6) : S1x64.Idx → EReal) (ix2 k j) := by
  obtain ⟨e0, e1⟩ := (block_index t).2.2.2.2.2.2.1
  unfold iblk2
  rw [View.read_apply]
  show V c (Pipeline.arrRef spec2 6) _ = V c (Pipeline.arrRef spec2 6) _
  refine congrArg _ (funext fun a => Fin.ext ?_)
  match a with
  | ⟨0, _⟩ => show win2_6.index t (0 : Fin 2) * 1 + 1 * k.val = k.val; rw [e0]; omega
  | ⟨1, _⟩ => show win2_6.index t (1 : Fin 2) * 64 + 1 * j.val = j.val; rw [e1]; omega

/-- The last layer's weights, whole at every point. -/
theorem whole7 (c : Dev nD) (t : Fin cfg2.N) (k : Fin 64) (j : Fin 1) :
    (iblk2 V c 7 t : FVec Ideal S64x1 .bf16) (ix2 k j) = (V c (Pipeline.arrRef spec2 7) : S64x1.Idx → EReal) (ix2 k j) := by
  obtain ⟨e0, e1⟩ := (block_index t).2.2.2.2.2.2.2.1
  unfold iblk2
  rw [View.read_apply]
  show V c (Pipeline.arrRef spec2 7) _ = V c (Pipeline.arrRef spec2 7) _
  refine congrArg _ (funext fun a => Fin.ext ?_)
  match a with
  | ⟨0, _⟩ => show win2_7.index t (0 : Fin 2) * 64 + 1 * k.val = k.val; rw [e0]; omega
  | ⟨1, _⟩ => show win2_7.index t (1 : Fin 2) * 1 + 1 * j.val = j.val; rw [e1]; omega

/-- The last layer's bias, whole at every point. -/
theorem whole8 (c : Dev nD) (t : Fin cfg2.N) (k : Fin 1) (j : Fin 1) :
    (iblk2 V c 8 t : FVec Ideal S1x1 .f32) (ix2 k j) = (V c (Pipeline.arrRef spec2 8) : S1x1.Idx → EReal) (ix2 k j) := by
  obtain ⟨e0, e1⟩ := (block_index t).2.2.2.2.2.2.2.2.1
  unfold iblk2
  rw [View.read_apply]
  show V c (Pipeline.arrRef spec2 8) _ = V c (Pipeline.arrRef spec2 8) _
  refine congrArg _ (funext fun a => Fin.ext ?_)
  match a with
  | ⟨0, _⟩ => show win2_8.index t (0 : Fin 2) * 1 + 1 * k.val = k.val; rw [e0]; omega
  | ⟨1, _⟩ => show win2_8.index t (1 : Fin 2) * 1 + 1 * j.val = j.val; rw [e1]; omega

end Cert.KernelIdeal.ClsValue

end
-- ==== Proof.ClsRegion.lean ====
/-
  What each grid point of the classifier region writes back, and the output array after the region.

  At point t the body stores, at row p of the output block, the classifier's row function of row p of the three
  moving blocks, that is of row 2048 t + p of their arrays, and of the whole weight and bias arrays. The output
  block of point t sits at rows 2048 t .. 2048 t + 2047 of the [8192, 1] output, so point t writes back exactly
  block t of the output array function. The four blocks tile the output (row r lies in the block of point
  r / 2048), so after the region the output array is that function.
-/
import proofs.«172716_j19241453486692_2_alg».proof.Proof.ClsBlocks

noncomputable section

namespace Cert.KernelIdeal.ClsValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Row p of what the body computes from the blocks of point t is the output array function at any index of row
    2048 t + p. -/
theorem stored_apply (c : Dev nD) (t : Fin cfg2.N) (p : Fin 2048) (u : Fin 1) (i : S8192x1.Idx)
    (hi : (i 0 : Fin 8192).val = t.val * 2048 + p.val) :
    k2_pay1 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) (ix2 p u)
      = clsArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) i := by
  refine (pay_apply _ _ _ _ _ _ _ _ _ p u).trans ?_
  unfold clsArr
  exact clsRow_congr (fun k => rows0 V c t p k _ hi) (fun k => rows1 V c t p k _ hi) (fun k => rows2 V c t p k _ hi)
    (fun k j => whole3 V c t k j) (fun j => whole4 V c t 0 j) (fun k j => whole5 V c t k j) (fun j => whole6 V c t 0 j)
    (fun k j => whole7 V c t k j) (fun j => whole8 V c t 0 j)

/-- Point t's block of any function G on the output array's indices, read at j, is G at the block's j-th element. -/
theorem read_block (t : Fin cfg2.N) (G : S8192x1.Idx → EReal) (j : ((cfg2.win 9).xblock (grid2.coords t)).Idx) :
    ((cfg2.win 9).blk t).view.read (Elt Ideal) G j = G (((cfg2.win 9).blk t).view.emb j) := by
  rw [View.read_apply]
  rfl

/-- Point t writes back block t of the output array function: what the body leaves in the staging buffer is one
    whole-buffer store of its result on the nine input blocks, read entry by entry. -/
theorem flushed_eq (c : Dev nD) (t : Fin cfg2.N) :
    (dat2 (F := Ideal) V c).flushed 9 t
      = ((cfg2.win 9).blk t).view.read (Elt Ideal) (clsArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 V c).after 9 t) = _
  rw [after2_9]
  unfold out2_9
  rw [View.canon_unit_zero zero_offsets]
  simp only [View.ld_unit_zero (S := S2048x128) zero_offsets, View.ld_unit_zero (S := S2048x16) zero_offsets,
    View.ld_unit_zero (S := S16x32) zero_offsets, View.ld_unit_zero (S := S1x32) zero_offsets,
    View.ld_unit_zero (S := S288x64) zero_offsets, View.ld_unit_zero (S := S1x64) zero_offsets,
    View.ld_unit_zero (S := S64x1) zero_offsets, View.ld_unit_zero (S := S1x1) zero_offsets]
  obtain ⟨e0, e1⟩ := (block_index t).2.2.2.2.2.2.2.2.2
  funext j
  have hj : j = ix2 (j 0 : Fin 2048) (j 1 : Fin 1) := eq_ix2 (n0 := 2048) (n1 := 1) j
  refine (congrArg (k2_pay1 (F := Ideal) (iblk2 V c 0 t) (iblk2 V c 1 t) (iblk2 V c 2 t) (iblk2 V c 3 t) (iblk2 V c 4 t) (iblk2 V c 5 t)
      (iblk2 V c 6 t) (iblk2 V c 7 t) (iblk2 V c 8 t)) hj).trans ?_
  refine (stored_apply V c t (j 0) (j 1) (((cfg2.win 9).blk t).view.emb j) ?_).trans ?_
  · show win2_9.index t (0 : Fin 2) * 2048 + 1 * (j 0).val = t.val * 2048 + (j 0).val
    rw [e0]; omega
  · exact (read_block t _ j).symm

/-- An index of the output array is in point t's block iff each coordinate is in the block's range on its axis. -/
theorem mem_blk (t : Fin cfg2.N) (i : S8192x1.Idx) :
    i ∈ ((cfg2.win 9).blk t).view.set ↔ ∀ a : Fin 2, win2_9.index t a * S2048x1.size a ≤ (i a).val ∧ (i a).val < win2_9.index t a * S2048x1.size a + S2048x1.size a := by
  show i ∈ ((View.whole main_v75).slice (win2_9.rect t)).set ↔ _
  rw [View.set_slice_whole, Rect.mem_set_unit]
  exact Iff.rfl

/-- The four blocks tile the output: row r is in the block of point r / 2048. -/
theorem cover (i : S8192x1.Idx) : ∃ t : Fin cfg2.N, (cfg2.win 9).flush t = true ∧ i ∈ ((cfg2.win 9).blk t).view.set := by
  have hi0 : (i 0).val < 8192 := (i 0).isLt
  have hi1 : (i 1).val < 1 := (i 1).isLt
  have hN : cfg2.N = 4 := N_2
  obtain ⟨t, ht⟩ : ∃ t : Fin cfg2.N, t.val = (i 0).val / 2048 := ⟨⟨(i 0).val / 2048, by rw [hN]; omega⟩, rfl⟩
  obtain ⟨e0, e1⟩ := (block_index t).2.2.2.2.2.2.2.2.2
  refine ⟨t, flush2_9 t, ?_⟩
  rw [mem_blk]
  intro a
  match a with
  | ⟨0, _⟩ => show win2_9.index t (0 : Fin 2) * 2048 ≤ (i 0).val ∧ (i 0).val < win2_9.index t (0 : Fin 2) * 2048 + 2048; rw [e0, ht]; omega
  | ⟨1, _⟩ => show win2_9.index t (1 : Fin 2) * 1 ≤ (i 1).val ∧ (i 1).val < win2_9.index t (1 : Fin 2) * 1 + 1; rw [e1]; omega

/-- The output array after the region: at (n, 0) the classifier's row function of row n of the three row-indexed
    arrays and of the weight and bias arrays, as the region finds them. -/
theorem final2 (c : Dev nD) : (dat2 (F := Ideal) V c).arrAt 9 cfg2.N
    = clsArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (dat2 (F := Ideal) V c).arrAt_eq_of_cover 9 (clsArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) (fun t _ => flushed_eq V c t) cover

end Cert.KernelIdeal.ClsValue

end
-- ==== Proof.RefValue.lean ====
import proofs.«172716_j19241453486692_2_alg».proof.Proof.Gen.ReferenceIdeal.Read
import proofs.«172716_j19241453486692_2_alg».proof.Proof.Spec

/-!
  The reference network's dense stages read one entry at a time.

  Each stage of the reference is a whole array. Here an entry (n, j) of a stage is written in terms of row n of
  the stages it is computed from, in the row-wise form of the specification: a neighbourhood-mean layer's entry is
  relu((a · Wl + b) + h · Wr) at column j, with a the row of neighbour means and h the node's own row, and the
  classifier's single output is the composition of its three linear layers on the row made of the two gathered
  node rows and the transformed transaction features. The arithmetic of the reference is already in that order,
  so nothing is rearranged: every step is the reading of one operation at an index.
-/

noncomputable section

open scoped BigOperators

namespace Cert.ReferenceIdeal.RefValue

open Cert.ReferenceIdeal Cert.ReferenceIdeal.Read Idealize.ShloMosaic Idealize.ShloMosaic.ValueIdx

/-- Entry (n, j) of the first layer: relu((mean(n, ·) · Wl + b) + h0(n, ·) · Wr) at column j. The two products
    read row n of their left operands and column j of the weights; the bias is broadcast along the rows; the
    relu's second operand is the constant 0. -/
theorem h1_apply (x0 : (⟨S100000, .i32⟩ : BufTy).Contents (Elt Ideal)) (x1 : (⟨S2x1600000, .i32⟩ : BufTy).Contents (Elt Ideal))
    (x5 : (⟨S200000x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (n : Fin 100000) (j : Fin 128) :
    val_main_v36 (F := Ideal) x0 x1 x5 x6 x7 x8 (ix2 n j)
      = Cert.Spec.sageSplit (fun k => val_main_v29 (F := Ideal) x0 x1 x5 (ix2 n k))
          (fun k => val_main_v10 (F := Ideal) x0 x5 (ix2 n k))
          (fun k j => x6 (ix2 k j)) (fun k j => x8 (ix2 k j)) (fun j => x7 (ix1 j)) j := by
  have el : ∀ k : Fin 128, lidx_main_v30 (ix2 n j) k = ix2 n k := fun k =>
    funext fun a => by match a with | ⟨0, _⟩ => rfl | ⟨1, _⟩ => rfl
  have er : ∀ k : Fin 128, ridx_main_v30 (ix2 n j) k = ix2 k j := fun k =>
    funext fun a => by match a with | ⟨0, _⟩ => rfl | ⟨1, _⟩ => rfl
  have el' : ∀ k : Fin 128, lidx_main_v34 (ix2 n j) k = ix2 n k := fun k =>
    funext fun a => by match a with | ⟨0, _⟩ => rfl | ⟨1, _⟩ => rfl
  have er' : ∀ k : Fin 128, ridx_main_v34 (ix2 n j) k = ix2 k j := fun k =>
    funext fun a => by match a with | ⟨0, _⟩ => rfl | ⟨1, _⟩ => rfl
  have eb : idx_main_v31 (idx_main_v32 (ix2 n j)) = ix1 j :=
    funext fun a => by match a with | ⟨0, _⟩ => rfl
  rw [val_main_v36_apply, val_main_v35_apply, val_main_v33_apply, val_main_v30_apply, val_main_v34_apply,
    val_main_v32_apply, val_main_v31_apply, val_main_call0_v0_apply, val_main_call0_cst_apply]
  simp only [el, er, el', er', eb, Ideal.ofBits_def, Ideal.ofBits_zero_f32, Ideal.addf_def, Ideal.maximumf_def,
    Cert.Spec.sageSplit, Cert.Spec.dense]

/-- Entry (n, j) of the second layer: the same reading with the second layer's weights, the neighbour means of
    the first layer's output, and the first layer's output as the node's own row. -/
theorem h2_apply (x0 : (⟨S100000, .i32⟩ : BufTy).Contents (Elt Ideal)) (x1 : (⟨S2x1600000, .i32⟩ : BufTy).Contents (Elt Ideal))
    (x5 : (⟨S200000x128, .f32⟩ : BufTy).Contents (Elt Ideal)) (x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S128x128, .f32⟩ : BufTy).Contents (Elt Ideal))
    (n : Fin 100000) (j : Fin 128) :
    val_main_v62 (F := Ideal) x0 x1 x5 x6 x7 x8 x9 x10 x11 (ix2 n j)
      = Cert.Spec.sageSplit (fun k => val_main_v55 (F := Ideal) x0 x1 x5 x6 x7 x8 (ix2 n k))
          (fun k => val_main_v36 (F := Ideal) x0 x1 x5 x6 x7 x8 (ix2 n k))
          (fun k j => x9 (ix2 k j)) (fun k j => x11 (ix2 k j)) (fun j => x10 (ix1 j)) j := by
  have el : ∀ k : Fin 128, lidx_main_v56 (ix2 n j) k = ix2 n k := fun k =>
    funext fun a => by match a with | ⟨0, _⟩ => rfl | ⟨1, _⟩ => rfl
  have er : ∀ k : Fin 128, ridx_main_v56 (ix2 n j) k = ix2 k j := fun k =>
    funext fun a => by match a with | ⟨0, _⟩ => rfl | ⟨1, _⟩ => rfl
  have el' : ∀ k : Fin 128, lidx_main_v60 (ix2 n j) k = ix2 n k := fun k =>
    funext fun a => by match a with | ⟨0, _⟩ => rfl | ⟨1, _⟩ => rfl
  have er' : ∀ k : Fin 128, ridx_main_v60 (ix2 n j) k = ix2 k j := fun k =>
    funext fun a => by match a with | ⟨0, _⟩ => rfl | ⟨1, _⟩ => rfl
  have eb : idx_main_v57 (idx_main_v58 (ix2 n j)) = ix1 j :=
    funext fun a => by match a with | ⟨0, _⟩ => rfl
  rw [val_main_v62_apply, val_main_v61_apply, val_main_v59_apply, val_main_v56_apply, val_main_v60_apply,
    val_main_v58_apply, val_main_v57_apply, val_main_call1_v0_apply, val_main_call1_cst_apply]
  simp only [el, er, el', er', eb, Ideal.ofBits_def, Ideal.ofBits_zero_f32, Ideal.addf_def, Ideal.maximumf_def,
    Cert.Spec.sageSplit, Cert.Spec.dense]

/-- Entry (n, j) of the transformed transaction features: relu(x(n, ·) · Wt + bt) at column j. -/
theorem txn_apply (x4 : (⟨S8192x16, .f32⟩ : BufTy).Contents (Elt Ideal)) (x12 : (⟨S16x32, .f32⟩ : BufTy).Contents (Elt Ideal))
    (x13 : (⟨S32, .f32⟩ : BufTy).Contents (Elt Ideal)) (n : Fin 8192) (j : Fin 32) :
    val_main_v81 (F := Ideal) x4 x12 x13 (ix2 n j)
      = max (Cert.Spec.dense (fun k => x4 (ix2 n k)) (fun k j => x12 (ix2 k j)) (fun j => x13 (ix1 j)) j) 0 := by
  have el : ∀ k : Fin 16, lidx_main_v77 (ix2 n j) k = ix2 n k := fun k =>
    funext fun a => by match a with | ⟨0, _⟩ => rfl | ⟨1, _⟩ => rfl
  have er : ∀ k : Fin 16, ridx_main_v77 (ix2 n j) k = ix2 k j := fun k =>
    funext fun a => by match a with | ⟨0, _⟩ => rfl | ⟨1, _⟩ => rfl
  have eb : idx_main_v78 (idx_main_v79 (ix2 n j)) = ix1 j :=
    funext fun a => by match a with | ⟨0, _⟩ => rfl
  rw [val_main_v81_apply, val_main_v80_apply, val_main_v77_apply, val_main_v79_apply, val_main_v78_apply,
    val_main_call2_v0_apply, val_main_call2_cst_apply]
  simp only [el, er, eb, Ideal.ofBits_def, Ideal.ofBits_zero_f32, Ideal.addf_def, Ideal.maximumf_def,
    Cert.Spec.dense]

/-- Entry (n, k) of the classifier's input: the sender's row in columns 0..127, the receiver's row in columns
    128..255, the transformed transaction features in columns 256..287. The three arrays are joined along the
    column axis, so the column decides the piece and the row is kept. -/
theorem cat_apply (x0 : (⟨S100000, .i32⟩ : BufTy).Contents (Elt Ideal)) (x1 : (⟨S2x1600000, .i32⟩ : BufTy).Contents (Elt Ideal))
    (x2 x3 : (⟨S8192, .i32⟩ : BufTy).Contents (Elt Ideal)) (x4 : (⟨S8192x16, .f32⟩ : BufTy).Contents (Elt Ideal))
    (x5 : (⟨S200000x128, .f32⟩ : BufTy).Contents (Elt Ideal)) (x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S16x32, .f32⟩ : BufTy).Contents (Elt Ideal)) (x13 : (⟨S32, .f32⟩ : BufTy).Contents (Elt Ideal))
    (n : Fin 8192) (k : Fin 288) :
    val_main_v82 (F := Ideal) x0 x1 x2 x3 x4 x5 x6 x7 x8 x9 x10 x11 x12 x13 (ix2 n k)
      = Cert.Spec.cat3 (fun k => val_main_v69 (F := Ideal) x0 x1 x2 x5 x6 x7 x8 x9 x10 x11 (ix2 n k))
          (fun k => val_main_v76 (F := Ideal) x0 x1 x3 x5 x6 x7 x8 x9 x10 x11 (ix2 n k))
          (fun k => val_main_v81 (F := Ideal) x4 x12 x13 (ix2 n k)) k := by
  unfold val_main_v82
  generalize val_main_v69 (F := Ideal) x0 x1 x2 x5 x6 x7 x8 x9 x10 x11 = s
  generalize val_main_v76 (F := Ideal) x0 x1 x3 x5 x6 x7 x8 x9 x10 x11 = r
  generalize val_main_v81 (F := Ideal) x4 x12 x13 = t
  unfold Cert.Spec.cat3
  by_cases h1 : k.val < 128
  · rw [dif_pos h1]
    exact concatenate_apply_piece _ _ _ (ix2 n k) 0 (by show (0 : Nat) < 3; omega) S8192x128 s rfl rfl 0 rfl
      (ix2 n ⟨k.val, h1⟩) (fun b hb => by match b with | ⟨0, _⟩ => rfl | ⟨1, _⟩ => exact absurd rfl hb)
      (by show 0 + k.val = k.val; omega)
  · rw [dif_neg h1]
    by_cases h2 : k.val < 256
    · rw [dif_pos h2]
      exact concatenate_apply_piece _ _ _ (ix2 n k) 1 (by show (1 : Nat) < 3; omega) S8192x128 r rfl rfl 128 rfl
        (ix2 n ⟨k.val - 128, by omega⟩) (fun b hb => by match b with | ⟨0, _⟩ => rfl | ⟨1, _⟩ => exact absurd rfl hb)
        (by show 128 + (k.val - 128) = k.val; omega)
    · rw [dif_neg h2]
      exact concatenate_apply_piece _ _ _ (ix2 n k) 2 (by show (2 : Nat) < 3; omega) S8192x32 t rfl rfl 256 rfl
        (ix2 n ⟨k.val - 256, by have := k.isLt; omega⟩) (fun b hb => by match b with | ⟨0, _⟩ => rfl | ⟨1, _⟩ => exact absurd rfl hb)
        (by show 256 + (k.val - 256) = k.val; omega)

/-- Entry (n, j) of the classifier's hidden layer: relu(c(n, ·) · W1 + b1) at column j, with c the joined row. -/
theorem hid_apply (x0 : (⟨S100000, .i32⟩ : BufTy).Contents (Elt Ideal)) (x1 : (⟨S2x1600000, .i32⟩ : BufTy).Contents (Elt Ideal))
    (x2 x3 : (⟨S8192, .i32⟩ : BufTy).Contents (Elt Ideal)) (x4 : (⟨S8192x16, .f32⟩ : BufTy).Contents (Elt Ideal))
    (x5 : (⟨S200000x128, .f32⟩ : BufTy).Contents (Elt Ideal)) (x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S16x32, .f32⟩ : BufTy).Contents (Elt Ideal)) (x13 : (⟨S32, .f32⟩ : BufTy).Contents (Elt Ideal))
    (x14 : (⟨S288x64, .f32⟩ : BufTy).Contents (Elt Ideal)) (x15 : (⟨S64, .f32⟩ : BufTy).Contents (Elt Ideal)) (n : Fin 8192) (j : Fin 64) :
    val_main_v87 (F := Ideal) x0 x1 x2 x3 x4 x5 x6 x7 x8 x9 x10 x11 x12 x13 x14 x15 (ix2 n j)
      = max (Cert.Spec.dense
          (Cert.Spec.cat3 (fun k => val_main_v69 (F := Ideal) x0 x1 x2 x5 x6 x7 x8 x9 x10 x11 (ix2 n k))
            (fun k => val_main_v76 (F := Ideal) x0 x1 x3 x5 x6 x7 x8 x9 x10 x11 (ix2 n k))
            (fun j => max (Cert.Spec.dense (fun k => x4 (ix2 n k)) (fun k j => x12 (ix2 k j)) (fun j => x13 (ix1 j)) j) 0))
          (fun k j => x14 (ix2 k j)) (fun j => x15 (ix1 j)) j) 0 := by
  have el : ∀ k : Fin 288, lidx_main_v83 (ix2 n j) k = ix2 n k := fun k =>
    funext fun a => by match a with | ⟨0, _⟩ => rfl | ⟨1, _⟩ => rfl
  have er : ∀ k : Fin 288, ridx_main_v83 (ix2 n j) k = ix2 k j := fun k =>
    funext fun a => by match a with | ⟨0, _⟩ => rfl | ⟨1, _⟩ => rfl
  have eb : idx_main_v84 (idx_main_v85 (ix2 n j)) = ix1 j :=
    funext fun a => by match a with | ⟨0, _⟩ => rfl
  rw [val_main_v87_apply, val_main_v86_apply, val_main_v83_apply, val_main_v85_apply, val_main_v84_apply,
    val_main_call3_v0_apply, val_main_call3_cst_apply]
  simp only [el, er, eb, cat_apply, txn_apply, Ideal.ofBits_def, Ideal.ofBits_zero_f32, Ideal.addf_def, Ideal.maximumf_def,
    Cert.Spec.dense]

/-- The classifier's output for row n: the last linear layer, with its single output column, of the hidden
    layer's row n. -/
theorem out_apply (x0 : (⟨S100000, .i32⟩ : BufTy).Contents (Elt Ideal)) (x1 : (⟨S2x1600000, .i32⟩ : BufTy).Contents (Elt Ideal))
    (x2 x3 : (⟨S8192, .i32⟩ : BufTy).Contents (Elt Ideal)) (x4 : (⟨S8192x16, .f32⟩ : BufTy).Contents (Elt Ideal))
    (x5 : (⟨S200000x128, .f32⟩ : BufTy).Contents (Elt Ideal)) (x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S16x32, .f32⟩ : BufTy).Contents (Elt Ideal)) (x13 : (⟨S32, .f32⟩ : BufTy).Contents (Elt Ideal))
    (x14 : (⟨S288x64, .f32⟩ : BufTy).Contents (Elt Ideal)) (x15 : (⟨S64, .f32⟩ : BufTy).Contents (Elt Ideal))
    (x16 : (⟨S64x1, .f32⟩ : BufTy).Contents (Elt Ideal)) (x17 : (⟨S1, .f32⟩ : BufTy).Contents (Elt Ideal)) (n : Fin 8192) (u : Fin 1) :
    val_main_v91 (F := Ideal) x0 x1 x2 x3 x4 x5 x6 x7 x8 x9 x10 x11 x12 x13 x14 x15 x16 x17 (ix2 n u)
      = Cert.Spec.clsRow (fun k => val_main_v69 (F := Ideal) x0 x1 x2 x5 x6 x7 x8 x9 x10 x11 (ix2 n k))
          (fun k => val_main_v76 (F := Ideal) x0 x1 x3 x5 x6 x7 x8 x9 x10 x11 (ix2 n k))
          (fun k => x4 (ix2 n k)) (fun k j => x12 (ix2 k j)) (fun j => x13 (ix1 j))
          (fun k j => x14 (ix2 k j)) (fun j => x15 (ix1 j)) (fun k j => x16 (ix2 k j)) (fun j => x17 (ix1 j)) := by
  obtain rfl : u = 0 := Subsingleton.elim _ _
  have el : ∀ k : Fin 64, lidx_main_v88 (ix2 n (0 : Fin 1)) k = ix2 n k := fun k =>
    funext fun a => by match a with | ⟨0, _⟩ => rfl | ⟨1, _⟩ => rfl
  have er : ∀ k : Fin 64, ridx_main_v88 (ix2 n (0 : Fin 1)) k = ix2 k (0 : Fin 1) := fun k =>
    funext fun a => by match a with | ⟨0, _⟩ => rfl | ⟨1, _⟩ => rfl
  have eb : idx_main_v89 (idx_main_v90 (ix2 n (0 : Fin 1))) = ix1 (0 : Fin 1) :=
    funext fun a => by match a with | ⟨0, _⟩ => rfl
  rw [val_main_v91_apply, val_main_v88_apply, val_main_v90_apply, val_main_v89_apply]
  simp only [el, er, eb, hid_apply, Ideal.addf_def, Cert.Spec.clsRow, Cert.Spec.dense]

end Cert.ReferenceIdeal.RefValue

end
-- ==== Proof.SpecCongr.lean ====
/-
  The row-wise functions depend only on the entries of their arguments: equal rows and equal weights give equal
  outputs. Stated with pointwise hypotheses, so that an output row of one program can be matched with the other's
  by matching the rows and weights it is computed from.
-/
import proofs.«172716_j19241453486692_2_alg».proof.Proof.Spec

noncomputable section

namespace Cert.Spec

theorem sageRow_congr {a a' h h' : Fin 128 → EReal} {w w' : Fin 256 → Fin 128 → EReal} {b b' : Fin 128 → EReal}
    (ha : ∀ k, a k = a' k) (hh : ∀ k, h k = h' k) (hw : ∀ k j, w k j = w' k j) (hb : ∀ j, b j = b' j) (j : Fin 128) :
    sageRow a h w b j = sageRow a' h' w' b' j := by
  obtain rfl : a = a' := funext ha
  obtain rfl : h = h' := funext hh
  obtain rfl : w = w' := funext fun k => funext (hw k)
  obtain rfl : b = b' := funext hb
  rfl

theorem clsRow_congr {s s' r r' : Fin 128 → EReal} {x x' : Fin 16 → EReal} {wt wt' : Fin 16 → Fin 32 → EReal}
    {bt bt' : Fin 32 → EReal} {wc1 wc1' : Fin 288 → Fin 64 → EReal} {bc1 bc1' : Fin 64 → EReal}
    {wc2 wc2' : Fin 64 → Fin 1 → EReal} {bc2 bc2' : Fin 1 → EReal}
    (hs : ∀ k, s k = s' k) (hr : ∀ k, r k = r' k) (hx : ∀ k, x k = x' k) (hwt : ∀ k j, wt k j = wt' k j)
    (hbt : ∀ j, bt j = bt' j) (hwc1 : ∀ k j, wc1 k j = wc1' k j) (hbc1 : ∀ j, bc1 j = bc1' j)
    (hwc2 : ∀ k j, wc2 k j = wc2' k j) (hbc2 : ∀ j, bc2 j = bc2' j) :
    clsRow s r x wt bt wc1 bc1 wc2 bc2 = clsRow s' r' x' wt' bt' wc1' bc1' wc2' bc2' := by
  obtain rfl : s = s' := funext hs
  obtain rfl : r = r' := funext hr
  obtain rfl : x = x' := funext hx
  obtain rfl : wt = wt' := funext fun k => funext (hwt k)
  obtain rfl : bt = bt' := funext hbt
  obtain rfl : wc1 = wc1' := funext fun k => funext (hwc1 k)
  obtain rfl : bc1 = bc1' := funext hbc1
  obtain rfl : wc2 = wc2' := funext fun k => funext (hwc2 k)
  obtain rfl : bc2 = bc2' := funext hbc2
  rfl

end Cert.Spec

end
-- ==== Proof.Bridge.lean ====
/-
  The idealized kernel's result is the reference's result.

  Stage by stage, from the arguments as launched:
  * the first region's output array is the reference's first-layer features h1: entry (n, j) is the row-wise
    layer of row n of the mean and of row n of h0 against the stacked weights, the host's arrays being the
    reference's own stages, and the stacked form equals the reference's two-product form
    (Spec.sage_stacked: a sum over 256 columns splits in two, and + is commutative and associative);
  * so the second region reads the reference's second mean and h1, and its output array is the reference's h2;
  * so the classifier region reads the reference's gathered sender and receiver rows, and its output is the
    reference's result.
  Every step is an equality of whole arrays, proved entry by entry.
-/
import proofs.«172716_j19241453486692_2_alg».proof.Proof.KernelRun
import proofs.«172716_j19241453486692_2_alg».proof.Proof.KHost0
import proofs.«172716_j19241453486692_2_alg».proof.Proof.KHost1
import proofs.«172716_j19241453486692_2_alg».proof.Proof.KHost1b
import proofs.«172716_j19241453486692_2_alg».proof.Proof.KMean
import proofs.«172716_j19241453486692_2_alg».proof.Proof.KHost2
import proofs.«172716_j19241453486692_2_alg».proof.Proof.SageRegion1
import proofs.«172716_j19241453486692_2_alg».proof.Proof.ClsRegion
import proofs.«172716_j19241453486692_2_alg».proof.Proof.RefValue
import proofs.«172716_j19241453486692_2_alg».proof.Proof.SpecCongr

set_option maxRecDepth 16384

noncomputable section

namespace Cert.KernelIdeal.Bridge

open Cert.KernelIdeal Cert.KernelIdeal.Gen Cert.KernelIdeal.KHost Cert.ReferenceIdeal.Read
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first region's output array is the reference's first-layer features. -/
theorem h1_eq (c : Dev nD) :
    W2 (F := Ideal) m ρ c (Proc.devRef .tc main_v38)
      = val_main_v36 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) := by
  have e : W2 (F := Ideal) m ρ c (Proc.devRef .tc main_v38) = (dat0 (V1 m ρ) c).arrAt 4 cfg0.N := W2_arr m ρ c 4
  rw [e, Cert.KernelIdeal.SageValue.final0]
  funext i
  obtain ⟨n, j, rfl⟩ : ∃ (n : Fin 100000) (j : Fin 128), i = ix2 n j := ⟨i 0, i 1, eq_ix2 i⟩
  rw [Cert.ReferenceIdeal.RefValue.h1_apply, ← Cert.Spec.sage_stacked]
  exact Cert.Spec.sageRow_congr (fun k => congrFun (mean1_eq m ρ c) (ix2 n k)) (fun k => congrFun (h0_eq m ρ c) (ix2 n k))
    (fun k j => wcat1_apply m ρ c k j) (fun j => bias1_apply m ρ c j) j

/-- The second region's output array is the reference's second-layer features. -/
theorem h2_eq (c : Dev nD) :
    W4 (F := Ideal) m ρ c (Proc.devRef .tc main_v54)
      = val_main_v62 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e : W4 (F := Ideal) m ρ c (Proc.devRef .tc main_v54) = (dat1 (V3 m ρ) c).arrAt 4 cfg1.N := W4_arr m ρ c 4
  rw [e, Cert.KernelIdeal.SageValue.final1]
  funext i
  obtain ⟨n, j, rfl⟩ : ∃ (n : Fin 100000) (j : Fin 128), i = ix2 n j := ⟨i 0, i 1, eq_ix2 i⟩
  rw [Cert.ReferenceIdeal.RefValue.h2_apply, ← Cert.Spec.sage_stacked]
  exact Cert.Spec.sageRow_congr (fun k => congrFun (mean2_eq m ρ c (h1_eq m ρ c)) (ix2 n k))
    (fun k => congrFun ((h1_pass m ρ c).trans (h1_eq m ρ c)) (ix2 n k))
    (fun k j => wcat2_apply m ρ c k j) (fun j => bias2_apply m ρ c j) j

/-- The classifier region's output array is the reference's result. -/
theorem out_eq (c : Dev nD) :
    W6 (F := Ideal) m ρ c (Proc.devRef .tc main_v75)
      = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have e : W6 (F := Ideal) m ρ c (Proc.devRef .tc main_v75) = (dat2 (V5 m ρ) c).arrAt 9 cfg2.N := W6_arr m ρ c 9
  rw [e, Cert.KernelIdeal.ClsValue.final2]
  funext i
  obtain ⟨n, u, rfl⟩ : ∃ (n : Fin 8192) (u : Fin 1), i = ix2 n u := ⟨i 0, i 1, eq_ix2 i⟩
  rw [Cert.ReferenceIdeal.RefValue.out_apply]
  exact Cert.Spec.clsRow_congr (fun k => congrFun (sender_eq m ρ c (h2_eq m ρ c)) (ix2 n k))
    (fun k => congrFun (receiver_eq m ρ c (h2_eq m ρ c)) (ix2 n k))
    (fun k => congrFun (txf_eq m ρ c) (ix2 n k))
    (fun k j => wt_apply m ρ c k j) (fun j => bt_apply m ρ c j)
    (fun k j => wc1_apply m ρ c k j) (fun j => bc1_apply m ρ c j)
    (fun k j => wc2_apply m ρ c k j) (fun j => bc2_apply m ρ c j)

end Cert.KernelIdeal.Bridge

end
-- ==== Proof.lean ====
/-
  The claims of this certificate: the kernel of a two-layer neighbourhood-mean graph network with a classifier head
  equals its plain reference on the extended reals.

  The network: node features h0 are rows of an embedding table; a layer takes, for every node, the mean a of its
  in-neighbours' features (a sum over the edges into the node divided by their number, at least 1) and returns
  relu(a · Wl + b + h · Wr); after two layers the features of the sender and the receiver of each transaction are laid
  beside relu(x · Wt + bt) of the transaction's own features, and two more linear layers (the first with relu)
  give one number per transaction.

  The kernel computes each layer's dense part in a grid region as relu([a | h] · [Wl ; Wr] + b) on blocks of 10000
  rows, and the classifier in a third region on blocks of 2048 rows; gathers and scatter-adds stay on the host in
  both programs. On the extended reals the changes of float format are the identity, a region's output array is its
  row-wise function of the arrays it reads (each row lies in exactly one block), and
  [a | h] · [Wl ; Wr] + b = (a · Wl + b) + h · Wr because a sum over 256 columns splits into two sums of 128 and
  addition is commutative and associative. No finiteness of the inputs is used for the values.

  The three frames: the two kernel programs' are the generated launch proofs; the reference's is its generated run
  with the result dropped. The idealization rewrote no operation, so nothing is to be preserved.
-/
import proofs.«172716_j19241453486692_2_alg».proof.Defs
import proofs.«172716_j19241453486692_2_alg».proof.Proof.Gen.Kernel
import proofs.«172716_j19241453486692_2_alg».proof.Proof.Gen.Kernel.Frame
import proofs.«172716_j19241453486692_2_alg».proof.Proof.Gen.KernelIdeal
import proofs.«172716_j19241453486692_2_alg».proof.Proof.Gen.KernelIdeal.Frame
import proofs.«172716_j19241453486692_2_alg».proof.Proof.Gen.ReferenceIdeal
import proofs.«172716_j19241453486692_2_alg».proof.Proof.Gen.ReferenceIdeal.Run
import proofs.«172716_j19241453486692_2_alg».proof.Proof.Gen.ReferenceIdeal.Read
import proofs.«172716_j19241453486692_2_alg».proof.Proof.Gen.Pre_finite_inputs
import proofs.«172716_j19241453486692_2_alg».proof.Proof.KernelRun
import proofs.«172716_j19241453486692_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs run, and both end with the reference's result function
    of the arguments in their result buffer: the kernel by the chain of stage equalities, the reference by its
    generated run. -/
theorem algebraic : Cert.algebraic_KernelIdeal_ReferenceIdeal := by
  intro m ρ m' ρ' _ hagree
  refine ⟨fun c => Cert.KernelIdeal.Gen.W6 m ρ c (Proc.devRef .tc Cert.KernelIdeal.main_v75),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v91_eq, h0, h1, h2, h3, h4, h5, h6, h7, h8, h9, h10, h11, h12, h13, h14, h15, h16, h17]
  exact (Cert.KernelIdeal.Bridge.out_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
